-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1x128 : Shape := ⟨2, ![1, 128]⟩
abbrev S5000x128 : Shape := ⟨2, ![5000, 128]⟩
abbrev S5000x1 : Shape := ⟨2, ![5000, 1]⟩
abbrev S1700000x128 : Shape := ⟨2, ![1700000, 128]⟩
abbrev S5000 : Shape := ⟨1, ![5000]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 62
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S1x128, .f32⟩
  | .hbm, ⟨31, _⟩ => ⟨S100000x128, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000x128, .f32⟩
  | .hbm, ⟨41, _⟩ => ⟨S_, .f32⟩
  | .hbm, ⟨42, _⟩ => ⟨S100000x128, .f32⟩
  | .hbm, ⟨43, _⟩ => ⟨S1700000x1, .i32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S_, .f32⟩
  | .hbm, ⟨57, _⟩ => ⟨S100000x128, .f32⟩
  | .hbm, ⟨58, _⟩ => ⟨S1700000x1, .i32⟩
  | .hbm, ⟨59, _⟩ => ⟨S100000x128, .f32⟩
  | .hbm, ⟨60, _⟩ => ⟨S1x64, .f32⟩
  | .hbm, ⟨61, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x1, .f32⟩
  | .local _ .vmem, ⟨5, _⟩ => ⟨S5000x1, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x1, .f32⟩
  | .local _ .vmem, ⟨19, _⟩ => ⟨S5000x1, .f32⟩
  | .local _ .vmem, ⟨20, _⟩ => ⟨S128x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S5000x128_S5000x128 : S5000x128.ShapeCasts S5000x128
  reduces_S5000x128_S5000 : S5000x128.Reduces [1] S5000
  shapeCasts_S5000_S5000x1 : S5000.ShapeCasts S5000x1
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S100000x1.size a
  hwx0_3 : ∀ i : grid0.Coords, EltTy.bits .f32 = 32 ∨ (Rect.block (s := S100000x1) S5000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v39) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v41) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128 : Shape := ⟨2, ![1, 128]⟩
abbrev S1700000x128 : Shape := ⟨2, ![1700000, 128]⟩
abbrev S100000x1 : Shape := ⟨2, ![100000, 1]⟩
abbrev S100000x64 : Shape := ⟨2, ![100000, 64]⟩
abbrev S1x64 : Shape := ⟨2, ![1, 64]⟩

abbrev nBuf : Space → Nat
  | .hbm => 151
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S100000x128, .f32⟩
  | 30 => ⟨S1x128, .f32⟩
  | 31 => ⟨S100000x128, .f32⟩
  | 32 => ⟨S100000x128, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S1700000x1, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000x128, .f32⟩
  | 62 => ⟨S1700000x128, .f32⟩
  | 63 => ⟨S1700000x128, .f32⟩
  | 64 => ⟨S_, .f32⟩
  | 65 => ⟨S100000x128, .f32⟩
  | 66 => ⟨S1700000x1, .i32⟩
  | 67 => ⟨S100000x128, .f32⟩
  | 68 => ⟨S_, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S100000x128, .f32⟩
  | 75 => ⟨S100000x128, .f32⟩
  | 76 => ⟨S_, .f32⟩
  | 77 => ⟨S100000, .f32⟩
  | 78 => ⟨S100000x1, .f32⟩
  | 79 => ⟨S100000x1, .f32⟩
  | 80 => ⟨S_, .f32⟩
  | 81 => ⟨S100000x1, .f32⟩
  | 82 => ⟨S100000x1, .f32⟩
  | 83 => ⟨S100000x128, .f32⟩
  | 84 => ⟨S100000x128, .f32⟩
  | 85 => ⟨S_, .f32⟩
  | 86 => ⟨S100000x128, .f32⟩
  | 87 => ⟨S100000x128, .f32⟩
  | 88 => ⟨S100000x128, .f32⟩
  | 89 => ⟨S1x128, .f32⟩
  | 90 => ⟨S100000x128, .f32⟩
  | 91 => ⟨S100000x128, .f32⟩
  | 92 => ⟨S_, .i32⟩
  | 93 => ⟨S1700000, .i32⟩
  | 94 => ⟨S1700000, .i1⟩
  | 95 => ⟨S_, .i32⟩
  | 96 => ⟨S1700000, .i32⟩
  | 97 => ⟨S1700000, .i32⟩
  | 98 => ⟨S1700000, .i32⟩
  | 99 => ⟨S1700000x1, .i32⟩
  | 100 => ⟨S1700000, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000, .f32⟩
  | 110 => ⟨S1700000, .f32⟩
  | 111 => ⟨S1700000x1, .f32⟩
  | 112 => ⟨S_, .i32⟩
  | 113 => ⟨S1700000, .i32⟩
  | 114 => ⟨S1700000, .i1⟩
  | 115 => ⟨S_, .i32⟩
  | 116 => ⟨S1700000, .i32⟩
  | 117 => ⟨S1700000, .i32⟩
  | 118 => ⟨S1700000, .i32⟩
  | 119 => ⟨S1700000x1, .i32⟩
  | 120 => ⟨S1700000x128, .f32⟩
  | 121 => ⟨S1700000x128, .f32⟩
  | 122 => ⟨S1700000x128, .f32⟩
  | 123 => ⟨S_, .f32⟩
  | 124 => ⟨S100000x128, .f32⟩
  | 125 => ⟨S1700000x1, .i32⟩
  | 126 => ⟨S100000x128, .f32⟩
  | 127 => ⟨S_, .f32⟩
  | _ => ⟨S100000x128, .f32⟩

abbrev hbmTy0_1 (i : Nat) : BufTy := match i % 128 with
  | 0 => ⟨S100000x128, .f32⟩
  | 1 => ⟨S100000x128, .f32⟩
  | 2 => ⟨S_, .f32⟩
  | 3 => ⟨S100000x128, .f32⟩
  | 4 => ⟨S100000x128, .f32⟩
  | 5 => ⟨S100000x128, .f32⟩
  | 6 => ⟨S100000x128, .f32⟩
  | 7 => ⟨S_, .f32⟩
  | 8 => ⟨S100000, .f32⟩
  | 9 => ⟨S100000x1, .f32⟩
  | 10 => ⟨S100000x1, .f32⟩
  | 11 => ⟨S_, .f32⟩
  | 12 => ⟨S100000x1, .f32⟩
  | 13 => ⟨S100000x1, .f32⟩
  | 14 => ⟨S100000x128, .f32⟩
  | 15 => ⟨S100000x128, .f32⟩
  | 16 => ⟨S_, .f32⟩
  | 17 => ⟨S100000x128, .f32⟩
  | 18 => ⟨S100000x128, .f32⟩
  | 19 => ⟨S100000x64, .f32⟩
  | 20 => ⟨S1x64, .f32⟩
  | 21 => ⟨S100000x64, .f32⟩
  | 22 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_4 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_9 : Ref sig .tc := ⟨.hbm, 68, rfl⟩
abbrev main_v47 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_call1_cst : Ref sig .tc := ⟨.hbm, 85, rfl⟩
abbrev main_call1_v0 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_13 : Ref sig .tc := ⟨.hbm, 92, rfl⟩
abbrev main_v65 : Ref sig .tc := ⟨.hbm, 93, rfl⟩
abbrev main_v66 : Ref sig .tc := ⟨.hbm, 94, rfl⟩
abbrev main_c_14 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c_15 : Ref sig .tc := ⟨.hbm, 101, rfl⟩
abbrev main_v72 : Ref sig .tc := ⟨.hbm, 102, rfl⟩
abbrev main_v73 : Ref sig .tc := ⟨.hbm, 103, rfl⟩
abbrev main_c_16 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_c_17 : Ref sig .tc := ⟨.hbm, 112, rfl⟩
abbrev main_v81 : Ref sig .tc := ⟨.hbm, 113, rfl⟩
abbrev main_v82 : Ref sig .tc := ⟨.hbm, 114, rfl⟩
abbrev main_c_18 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_19 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_20 : Ref sig .tc := ⟨.hbm, 127, rfl⟩
abbrev main_v93 : Ref sig .tc := ⟨.hbm, 128, rfl⟩
abbrev main_v94 : Ref sig .tc := ⟨.hbm, 129, rfl⟩
abbrev main_cst_21 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_cst_22 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_cst_23 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_call2_cst : Ref sig .tc := ⟨.hbm, 144, rfl⟩
abbrev main_call2_v0 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  dot_S100000x128_S128x128_S100000x128_1_0_0_1_n_n_wf : DotDims.WF S100000x128 S128x128 S100000x128 [1] [0] [0] [1] [] []
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel's run, with its result named.

  Every weakly fair execution of the program terminates, nothing faulting, with the argument arrays as launched and
  the result array holding what the last of the three row-blocked regions leaves in it: the contents `W8` at the
  result's buffer, that is, the write-backs of the last region's twenty row blocks folded over the array.
  The run is the one that proves the frame, read at one more buffer: the launch over the program's eight segments
  (five stretches of host operations, three regions), the last thread state read against the final memory.
-/
import proofs.«128727_j64132451664423_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program runs to the end with the result array at the last region's folded write-backs and every argument
    array unchanged. -/
theorem run : θ_run defs (onTc (τ := τ) (main (F := F))) ⟨m, fun _ => 0, ρ⟩ (fun r => ∀ c : Dev nD,
      r.2.mem ((c.tc : Thread nD τ).loc main_v41) = W8 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v41 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.RunValue

end
-- ==== Proof.RefJoin.lean ====
/-
  The reference's run, read as its last stage.

  The run of the reference program ends with its result buffer at one long term in the argument arrays; that term is
  the last of the program's stages (each stage is one operation applied to the stages before it), so the run ends with
  the result at `val_main_v110` of the eight arguments.
-/
import proofs.«128727_j64132451664423_2_alg».proof.Proof.RefRunP
import proofs.«128727_j64132451664423_2_alg».proof.Proof.RefReadP

set_option maxRecDepth 8192

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The term the run names is the last stage at the arguments. -/
theorem res_eq (m : (ℓ : Loc nD τ sig) → Buf (Elt F) ℓ) (c : Dev nD) :
    Cert.ReferenceIdeal.ValueP.res_main_v110 m c
      = Cert.ReferenceIdeal.ReadP.val_main_v110 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold Cert.ReferenceIdeal.ValueP.res_main_v110; rfl

end Cert.ReferenceIdeal.RefValue

end
-- ==== Proof.Spec.lean ====
/-
  The row operations of one layer of the network, on extended reals.

  A node's aggregated feature row `a` is divided by the larger of its Euclidean length √(Σ a_j²) and a small
  constant ε, and the positive part of every entry is kept: `unit a k = max (a k / max (√Σ a_j²) ε) 0`. The next dense
  layer (`Cert.DenseLayer.lin`) is applied to that row. Both programs compute exactly these operations, one on blocks
  of rows and one on the whole array, with the same two constants (the words of ε and of zero as they print them).
-/
import Idealize.ShloMosaic.Lib.ValueIdx
import Idealize.ShloMosaic.PureOps.Ideal.Laws

noncomputable section

namespace Cert.Gcn

open Idealize.ShloMosaic
open scoped BigOperators

/-- The floor under a row's length: the value of the word both programs print for it. -/
def eps : EReal := Ideal.ofBits .f32 0x2B8CBCCC#32

/-- The value of the zero word both programs print. -/
def zw : EReal := Ideal.ofBits .f32 0x00000000#32

/-- The value of the word of one, as the reference prints it. -/
def one : EReal := Ideal.ofBits .f32 0x3F800000#32

/-- A row over the larger of its Euclidean length and `eps`, then the positive part of every entry. -/
def unit {K : ℕ} (a : Fin K → EReal) (k : Fin K) : EReal :=
  max (Ideal.div (a k) (max (Ideal.sqrt (∑ j : Fin K, a j * a j)) eps)) zw

/-- `unit` depends on the row only through its entries. -/
theorem unit_congr {K : ℕ} {a a' : Fin K → EReal} (k : Fin K) (e : ∀ j, a j = a' j) : unit a k = unit a' k := by
  rw [funext e]

end Cert.Gcn

end
-- ==== Proof.LibDenseRows.lean ====
/-
  Row-wise dense algebra read at an index given by coordinates, at the ideal values: a plain two-dimensional
  contraction `[M, K] · [K, N]` (the kernel's matrix product into a zero accumulator and the host's `dot_general`) as a sum
  over `k : Fin K` of the left operand's row times the right operand's column; a bias vector `[N]` laid along every row of
  `[M, N]` (both spellings: cast to one row then broadcast, and two `broadcast_in_dim`s); a concatenation of two blocks side
  by side along the columns; and a sum along the columns of `[M, N]` (the lane reduction and the host's `reduce`), plain
  and laid back out as a column `[M, 1]` that is broadcast over the columns.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Cert.DenseRows

open Idealize.ShloMosaic Idealize.ShloMosaic.ValueIdx
open scoped BigOperators

/-! ## A plain contraction `[M, K] · [K, N]` -/

/-- For dimension numbers that contract the left operand's columns with the right operand's rows and keep the left rows and
    the right columns in place, the sum over the contraction index at `(r, c)` is the sum over `k : Fin K` of the left
    operand at `(r, k)` times the right operand at `(k, c)`. -/
theorem sum_contr_plain {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : (⟨2, ![M, K]⟩ : Shape).Idx → EReal) (W : (⟨2, ![K, N]⟩ : Shape).Idx → EReal) (r : Fin M) (c : Fin N) :
    ∑ k : D.contr.Idx, A (D.lhsIdx (ix2 r c) k) * W (D.rhsIdx (ix2 r c) k) = ∑ k : Fin K, A (ix2 r k) * W (ix2 k c) := by
  rw [← Equiv.sum_comp (contrEquiv1 D K hrank hsize).symm]
  refine Finset.sum_congr rfl fun k _ => ?_
  have e1 : D.lhsIdx (ix2 r c) ((contrEquiv1 D K hrank hsize).symm k) = ix2 r k := by
    funext a; apply Fin.ext
    match a with
    | ⟨0, _⟩ => exact hl0 _ _
    | ⟨1, _⟩ => exact (D.lhsIdx_val_of_single hl _ _).trans (contrEquiv1_symm_val D K hrank hsize k)
  have e2 : D.rhsIdx (ix2 r c) ((contrEquiv1 D K hrank hsize).symm k) = ix2 k c := by
    funext a; apply Fin.ext
    match a with
    | ⟨0, _⟩ => exact (D.rhsIdx_val_of_single hr _ _).trans (contrEquiv1_symm_val D K hrank hsize k)
    | ⟨1, _⟩ => exact hr1 _ _
  rw [e1, e2]

/-- The kernel's matrix product into the zero accumulator, at `(r, c)`. -/
theorem matmul_zero_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    matmul D none A W (constant (F := Ideal) ⟨2, ![M, N]⟩ .f32 0x00000000#32) (ix2 r c) = ∑ k : Fin K, A (ix2 r k) * W (ix2 k c) :=
  (Ideal.matmul_constant_zero_apply D none A W (ix2 r c)).trans (sum_contr_plain D hl hr hrank hsize hl0 hr1 A W r c)

/-- The host's `dot_general` with the same dimension numbers, at `(r, c)`. -/
theorem dotGeneral_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    Host.dotGeneral D none A W (ix2 r c) = ∑ k : Fin K, A (ix2 r k) * W (ix2 k c) :=
  (Ideal.dotGeneral_apply D none .single A W (ix2 r c)).trans (sum_contr_plain D hl hr hrank hsize hl0 hr1 A W r c)

/-! ## A bias vector along every row -/

variable {α : Type}

/-- A vector `[N]` cast to one row `[1, N]` and broadcast down `M` rows reads, at `(r, c)`, the vector at `c`. -/
theorem rowBias_cast_apply {M N : ℕ} (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (r : Fin M) (c : Fin N) :
    broadcastTo ⟨2, ![M, N]⟩ (shapeCast ⟨2, ![1, N]⟩ b h1) h2 (ix2 r c) = b (ix1 c) :=
  (broadcastTo_1b_ab_apply _ h2 r c).trans (shapeCast_a_1a_apply b h1 0 c)

/-- A vector `[N]` placed on axis 1 of `[1, N]` reads, at `(u, c)`, the vector at `c`. -/
theorem broadcastInDim_a_1a_apply {N : ℕ} (b : (⟨1, ![N]⟩ : Shape).Idx → α)
    (h : (⟨1, ![N]⟩ : Shape).BroadcastsInDim ⟨2, ![1, N]⟩ ![1]) (u : Fin 1) (c : Fin N) :
    broadcastInDim ⟨2, ![1, N]⟩ ![1] h b (ix2 u c) = b (ix1 c) := by
  refine broadcastInDim_apply ![1] h b (ix2 u c) (ix1 c) fun a => ?_
  match a with
  | ⟨0, _⟩ =>
    show c.val = if N = 1 then 0 else c.val
    split
    · have := c.isLt; omega
    · rfl

/-- The host's spelling of the same: two `broadcast_in_dim`s, `[N]` to `[1, N]` to `[M, N]`. -/
theorem rowBias_inDim_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 b) (ix2 r c) = b (ix1 c) :=
  (broadcastInDim_oneRow_apply h2 _ r c).trans (broadcastInDim_a_1a_apply b h1 0 c)

/-! ## Two blocks side by side -/

/-- Two blocks `[M, A]` and `[M, B]` concatenated along the columns: a column left of `A` reads the first block. -/
theorem concat_cols_left {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : k.val < A) :
    concatenate ⟨2, ![M, C]⟩ (1 : Fin 2) [⟨⟨2, ![M, A]⟩, x⟩, ⟨⟨2, ![M, B]⟩, y⟩] h (ix2 r k) = x (ix2 r ⟨k.val, hk⟩) :=
  concatenate_pair_apply_left (1 : Fin 2) x y h (ix2 r k) rfl (ix2 r ⟨k.val, hk⟩) fun b => by
    match b with
    | ⟨0, _⟩ => rfl
    | ⟨1, _⟩ => rfl

/-- … and a column from `A` on reads the second block, `A` columns to the left. -/
theorem concat_cols_right {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : A ≤ k.val)
    (hk' : k.val - A < B) :
    concatenate ⟨2, ![M, C]⟩ (1 : Fin 2) [⟨⟨2, ![M, A]⟩, x⟩, ⟨⟨2, ![M, B]⟩, y⟩] h (ix2 r k) = y (ix2 r ⟨k.val - A, hk'⟩) :=
  concatenate_pair_apply_right (1 : Fin 2) x y h (ix2 r k) rfl rfl (ix2 r ⟨k.val - A, hk'⟩)
    (fun b hb => by
      match b with
      | ⟨0, _⟩ => rfl
      | ⟨1, _⟩ => exact absurd rfl hb)
    (by show k.val - A + A = k.val; omega)

/-! ## A sum along the columns -/

/-- The lane reduction of `[M, N]` along its columns from the zero word, at row `r`. -/
theorem laneSum_apply {M N : ℕ} (src : FVec Ideal ⟨2, ![M, N]⟩ .f32) (h : (⟨2, ![M, N]⟩ : Shape).Reduces [(1 : Fin 2)] ⟨1, ![M]⟩)
    (hφ : FKind.Formats .f32) (hacc : (0x00000000#32 : BitVec 32) = FKind.add.neutral .f32 hφ)
    (hlift : ∀ (r : Fin M) (k : Fin N), h.lift (ix1 r) k = ix2 r k) (r : Fin M) :
    multiReduction .add [(1 : Fin 2)] ⟨1, ![M]⟩ src 0x00000000#32 h hφ hacc (ix1 r) = ∑ k : Fin N, src (ix2 r k) :=
  (Ideal.multiReduction_add_single src 0x00000000#32 h hφ hacc (ix1 r)).trans
    (Finset.sum_congr rfl fun k _ => congrArg src (hlift r k))

/-- The host's `reduce` with `add` along the columns from an initial scalar, at row `r`. -/
theorem hostRowSum_apply {M N : ℕ} (x : FVec Ideal ⟨2, ![M, N]⟩ .f32) (init : (⟨0, ![]⟩ : Shape).Idx → Ideal .f32)
    (h' : (⟨2, ![M, N]⟩ : Shape).ReducesTo [(1 : Fin 2)] ⟨1, ![M]⟩) (hu : 0 < (⟨0, ![]⟩ : Shape).numel)
    (h : (⟨2, ![M, N]⟩ : Shape).Reduces [(1 : Fin 2)] ⟨1, ![M]⟩)
    (hlift : ∀ (r : Fin M) (k : Fin N), h.lift (ix1 r) k = ix2 r k) (r : Fin M) :
    Host.reduceAdd x init h' hu (ix1 r) = init (Shape.Idx.first hu) + ∑ k : Fin N, x (ix2 r k) :=
  (hostReduceAdd_apply x init h' hu (ix1 r)).trans
    ((Ideal.hostReduceAdd_single h' h x _ (ix1 r)).trans
      (congrArg (init (Shape.Idx.first hu) + ·) (Finset.sum_congr rfl fun k _ => congrArg x (hlift r k))))

/-- A vector `[M]` placed on axis 0 of `[M, 1]` reads, at `(r, u)`, the vector at `r`. -/
theorem broadcastInDim_a_a1_apply {M : ℕ} (v : (⟨1, ![M]⟩ : Shape).Idx → α)
    (h : (⟨1, ![M]⟩ : Shape).BroadcastsInDim ⟨2, ![M, 1]⟩ ![0]) (r : Fin M) (u : Fin 1) :
    broadcastInDim ⟨2, ![M, 1]⟩ ![0] h v (ix2 r u) = v (ix1 r) := by
  refine broadcastInDim_apply ![0] h v (ix2 r u) (ix1 r) fun a => ?_
  match a with
  | ⟨0, _⟩ =>
    show r.val = if M = 1 then 0 else r.val
    split
    · have := r.isLt; omega
    · rfl

/-- A column `[M, 1]` laid over the columns of `[M, N]` by `broadcast_in_dim` reads, at `(r, c)`, the column at row `r`. -/
theorem broadcastInDim_a1_ab_apply {M N : ℕ} (v : (⟨2, ![M, 1]⟩ : Shape).Idx → α)
    (h : (⟨2, ![M, 1]⟩ : Shape).BroadcastsInDim ⟨2, ![M, N]⟩ ![0, 1]) (r : Fin M) (c : Fin N) :
    broadcastInDim ⟨2, ![M, N]⟩ ![0, 1] h v (ix2 r c) = v (ix2 r (0 : Fin 1)) := by
  refine broadcastInDim_apply ![0, 1] h v (ix2 r c) (ix2 r (0 : Fin 1)) fun a => ?_
  match a with
  | ⟨0, _⟩ =>
    show r.val = if M = 1 then 0 else r.val
    split
    · have := r.isLt; omega
    · rfl
  | ⟨1, _⟩ => rfl

end Cert.DenseRows

end
-- ==== Proof.LibDenseLayer.lean ====
/-
  Dense layers of a perceptron, row by row, on extended reals — general in the sizes.

  `lin h w b j = ∑ k, h k * w k j + b j` is one dense layer on a row `h` of `K` features with a weight table `w` (entry
  `w k j`: from input feature `k` to output feature `j`) and a bias row `b`; `act z v j = max (v j) z` the positive part
  against the zero word; `first` a two-operand first layer `(a·wl + bl) + x·wr` (a neighbourhood term and a root term).
  The lemmas read one layer of a BLOCK of rows at a row `p` and an output feature `q`, in the two spellings programs use:
  the kernel's — a matrix product `[M, K]·[K, N]` into a zero accumulator, the operands narrowed to a shorter float format
  first (the identity on extended reals) and the table under an identity shape cast, plus the bias row `[1, N]` laid down the
  `M` rows (`kernel_lin_apply`, `kernel_first_apply`, `kernel_act_apply`) — and the host's — `dot_general` of the same two
  arrays plus the bias vector `[N]` laid along every row by two `broadcast_in_dim`s (`host_lin_apply`, `host_first_apply`,
  `host_act_apply`). Each reads as `lin` / `first` / `act` of row `p`, so a kernel that works on blocks of rows and a
  reference that works on the whole array meet layer by layer (`lin_congr`, `act_congr` carry an equation of rows through a
  layer). The dimension numbers are any that contract the left columns with the right rows and keep the left rows and the
  right columns in place: the six hypotheses are read off a printed record by `rfl` and two short unfoldings.
-/
import proofs.«128727_j64132451664423_2_alg».proof.Proof.LibDenseRows

noncomputable section

namespace Cert.DenseLayer

open Idealize.ShloMosaic Idealize.ShloMosaic.ValueIdx Cert.DenseRows
open scoped BigOperators

/-! ## The layers on one row -/

/-- One dense layer on a row: output feature `j` is `∑ k, h k * w k j + b j`. -/
def lin {K N : ℕ} (h : Fin K → EReal) (w : Fin K → Fin N → EReal) (b : Fin N → EReal) (j : Fin N) : EReal :=
  (∑ k : Fin K, h k * w k j) + b j

/-- The positive part of every feature against the word `z` (the programs' zero). -/
def act {N : ℕ} (z : EReal) (v : Fin N → EReal) (j : Fin N) : EReal := max (v j) z

/-- The first layer: the dense layer of the averaged neighbour row `a` (with bias) plus the bias-free product of the node's own
    row `x` with the table `wr`, grouped as `(a·wl + bl) + x·wr`. -/
def first {K N : ℕ} (a x : Fin K → EReal) (wl : Fin K → Fin N → EReal) (bl : Fin N → EReal) (wr : Fin K → Fin N → EReal)
    (j : Fin N) : EReal :=
  lin a wl bl j + ∑ k : Fin K, x k * wr k j

/-- A dense layer depends on its input row only through the row's entries. -/
theorem lin_congr {K N : ℕ} {h h' : Fin K → EReal} (w : Fin K → Fin N → EReal) (b : Fin N → EReal) (j : Fin N)
    (e : ∀ k, h k = h' k) : lin h w b j = lin h' w b j := by rw [funext e]

/-- So does the positive part. -/
theorem act_congr {N : ℕ} (z : EReal) {v v' : Fin N → EReal} (j : Fin N) (e : ∀ k, v k = v' k) :
    act z v j = act z v' j := by rw [funext e]

/-! ## One layer of a block of rows, read at a row and an output feature -/

/-- The kernel's dense layer at `(p, q)`. -/
theorem kernel_lin_apply {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (h : FVec Ideal ⟨2, ![M, K]⟩ .f32) (w : FVec Ideal ⟨2, ![K, N]⟩ .f32) (b : FVec Ideal ⟨2, ![1, N]⟩ .f32)
    (ht : FTy.bf16.bits < FTy.f32.bits)
    (hcw : (⟨2, ![K, N]⟩ : Shape).ShapeCasts ⟨2, ![K, N]⟩) (hcb : (⟨2, ![1, N]⟩ : Shape).ShapeCasts ⟨2, ![1, N]⟩)
    (hb : (⟨2, ![1, N]⟩ : Shape).Broadcasts ⟨2, ![M, N]⟩) (p : Fin M) (q : Fin N) :
    addf (matmul D none (truncf .bf16 h ht) (truncf .bf16 (shapeCast ⟨2, ![K, N]⟩ w hcw) ht)
        (constant (F := Ideal) ⟨2, ![M, N]⟩ .f32 0x00000000#32))
      (broadcastTo ⟨2, ![M, N]⟩ (shapeCast ⟨2, ![1, N]⟩ b hcb) hb) (ix2 p q)
      = lin (fun k => h (ix2 p k)) (fun k j => w (ix2 k j)) (fun j => b (ix2 (0 : Fin 1) j)) q := by
  show matmul D none (truncf .bf16 h ht) (truncf .bf16 (shapeCast ⟨2, ![K, N]⟩ w hcw) ht)
        (constant (F := Ideal) ⟨2, ![M, N]⟩ .f32 0x00000000#32) (ix2 p q)
      + broadcastTo ⟨2, ![M, N]⟩ (shapeCast ⟨2, ![1, N]⟩ b hcb) hb (ix2 p q) = _
  rw [matmul_zero_plain_apply D hl hr hrank hsize hl0 hr1, broadcastTo_1b_ab_apply, shapeCast_self, shapeCast_self]
  rfl

/-- The host's dense layer at `(p, q)`. -/
theorem host_lin_apply {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (h : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    addf (Host.dotGeneral (F := Ideal) D none h w)
      (broadcastInDim ⟨2, ![M, N]⟩ ![0, 1] h2 (broadcastInDim ⟨2, ![1, N]⟩ ![1] h1 b)) (ix2 p q)
      = lin (fun k => h (ix2 p k)) (fun k j => w (ix2 k j)) (fun j => b (ix1 j)) q := by
  show Host.dotGeneral (F := Ideal) D none h w (ix2 p q)
      + broadcastInDim ⟨2, ![M, N]⟩ ![0, 1] h2 (broadcastInDim ⟨2, ![1, N]⟩ ![1] h1 b) (ix2 p q) = _
  rw [dotGeneral_plain_apply D hl hr hrank hsize hl0 hr1, rowBias_inDim_apply]
  rfl

/-- The kernel's first layer at `(p, q)`: the dense layer of the block `a` plus the bias-free product of the block `x` with a
    second table, grouped `(a·wl + bl) + x·wr`. -/
theorem kernel_first_apply {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (a x : FVec Ideal ⟨2, ![M, K]⟩ .f32) (wl wr : FVec Ideal ⟨2, ![K, N]⟩ .f32) (bl : FVec Ideal ⟨2, ![1, N]⟩ .f32)
    (ht : FTy.bf16.bits < FTy.f32.bits) (hca : (⟨2, ![M, K]⟩ : Shape).ShapeCasts ⟨2, ![M, K]⟩)
    (hcw : (⟨2, ![K, N]⟩ : Shape).ShapeCasts ⟨2, ![K, N]⟩) (hcb : (⟨2, ![1, N]⟩ : Shape).ShapeCasts ⟨2, ![1, N]⟩)
    (hb : (⟨2, ![1, N]⟩ : Shape).Broadcasts ⟨2, ![M, N]⟩) (p : Fin M) (q : Fin N) :
    addf (addf (matmul D none (truncf .bf16 (shapeCast ⟨2, ![M, K]⟩ a hca) ht) (truncf .bf16 (shapeCast ⟨2, ![K, N]⟩ wl hcw) ht)
          (constant (F := Ideal) ⟨2, ![M, N]⟩ .f32 0x00000000#32))
        (broadcastTo ⟨2, ![M, N]⟩ (shapeCast ⟨2, ![1, N]⟩ bl hcb) hb))
      (matmul D none (truncf .bf16 x ht) (truncf .bf16 (shapeCast ⟨2, ![K, N]⟩ wr hcw) ht)
        (constant (F := Ideal) ⟨2, ![M, N]⟩ .f32 0x00000000#32)) (ix2 p q)
      = first (fun k => a (ix2 p k)) (fun k => x (ix2 p k)) (fun k j => wl (ix2 k j)) (fun j => bl (ix2 (0 : Fin 1) j))
          (fun k j => wr (ix2 k j)) q := by
  show addf (matmul D none (truncf .bf16 (shapeCast ⟨2, ![M, K]⟩ a hca) ht) (truncf .bf16 (shapeCast ⟨2, ![K, N]⟩ wl hcw) ht)
          (constant (F := Ideal) ⟨2, ![M, N]⟩ .f32 0x00000000#32))
        (broadcastTo ⟨2, ![M, N]⟩ (shapeCast ⟨2, ![1, N]⟩ bl hcb) hb) (ix2 p q)
      + matmul D none (truncf .bf16 x ht) (truncf .bf16 (shapeCast ⟨2, ![K, N]⟩ wr hcw) ht)
        (constant (F := Ideal) ⟨2, ![M, N]⟩ .f32 0x00000000#32) (ix2 p q) = _
  rw [kernel_lin_apply D hl hr hrank hsize hl0 hr1 (shapeCast ⟨2, ![M, K]⟩ a hca) wl bl ht hcw hcb hb p q,
    matmul_zero_plain_apply D hl hr hrank hsize hl0 hr1, shapeCast_self, shapeCast_self]
  rfl

/-- The host's first layer at `(p, q)`, in the same grouping. -/
theorem host_first_apply {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (a x : FVec Ideal ⟨2, ![M, K]⟩ .f32) (wl wr : FVec Ideal ⟨2, ![K, N]⟩ .f32) (bl : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    addf (addf (Host.dotGeneral (F := Ideal) D none a wl)
        (broadcastInDim ⟨2, ![M, N]⟩ ![0, 1] h2 (broadcastInDim ⟨2, ![1, N]⟩ ![1] h1 bl)))
      (Host.dotGeneral (F := Ideal) D none x wr) (ix2 p q)
      = first (fun k => a (ix2 p k)) (fun k => x (ix2 p k)) (fun k j => wl (ix2 k j)) (fun j => bl (ix1 j))
          (fun k j => wr (ix2 k j)) q := by
  show addf (Host.dotGeneral (F := Ideal) D none a wl)
        (broadcastInDim ⟨2, ![M, N]⟩ ![0, 1] h2 (broadcastInDim ⟨2, ![1, N]⟩ ![1] h1 bl)) (ix2 p q)
      + Host.dotGeneral (F := Ideal) D none x wr (ix2 p q) = _
  rw [host_lin_apply D hl hr hrank hsize hl0 hr1 a wl bl h1 h2 p q, dotGeneral_plain_apply D hl hr hrank hsize hl0 hr1]
  rfl

/-- The kernel's positive part: the maximum with the zero word splat over the block. -/
theorem kernel_act_apply {M N : ℕ} (v : FVec Ideal ⟨2, ![M, N]⟩ .f32) (p : Fin M) (q : Fin N) :
    maximumf v (broadcast ⟨2, ![M, N]⟩ (Scalar.ofBits (F := Ideal) .f32 0x00000000#32)) (ix2 p q)
      = act (Ideal.ofBits .f32 0x00000000#32) (fun j => v (ix2 p j)) q := rfl

/-- The host's positive part: the maximum with the zero scalar laid over the array. -/
theorem host_act_apply {M N : ℕ} (v : FVec Ideal ⟨2, ![M, N]⟩ .f32)
    (h : (⟨0, ![]⟩ : Shape).BroadcastsInDim ⟨2, ![M, N]⟩ ![]) (p : Fin M) (q : Fin N) :
    maximumf v (broadcastInDim ⟨2, ![M, N]⟩ ![] h (constant (F := Ideal) ⟨0, ![]⟩ .f32 0x00000000#32)) (ix2 p q)
      = act (Ideal.ofBits .f32 0x00000000#32) (fun j => v (ix2 p j)) q := by
  show max (v (ix2 p q)) (broadcastInDim ⟨2, ![M, N]⟩ ![] h (constant (F := Ideal) ⟨0, ![]⟩ .f32 0x00000000#32) (ix2 p q)) = _
  rw [broadcastInDim_apply ![] h _ (ix2 p q) ix0 (fun a => a.elim0)]
  rfl

end Cert.DenseLayer

end
-- ==== Proof.LibGatherRows.lean ====
/-
  The host's gather of whole rows, read at an index given by coordinates: what `x[idx]` lowers to for a matrix
  `x : [N, C]` (or a vector `x : [N]`) and a column of M row numbers `idx : [M, 1]` (the index vector along the
  second axis). Row e of the result is row `idx[e, 0]` of the operand, the row number read as a signed integer and
  clamped into `[0, N − 1]` — a gather clamps every start index so that the slice fits, and the slice is one row.
  The clamped row depends on the row number's word alone (`clampRow`), so a matrix and a vector gathered at the same
  column of row numbers are read at the same rows.
-/
import Idealize.ShloMosaic.Lib.ValueIdx

noncomputable section

namespace Cert.GatherRows

open Idealize.ShloMosaic Idealize.ShloMosaic.ValueIdx

/-- A row number's word read signed and clamped into the rows `[0, N − 1]` of an operand with `N > 0` rows. -/
def clampRow (N : Nat) (hN : 0 < N) {w : Nat} (v : BitVec w) : Fin N := ⟨min v.toInt.toNat (N - 1), by omega⟩

/-- A word whose signed value is the row `n` clamps to `n`. -/
theorem clampRow_of_toInt {N : Nat} (hN : 0 < N) {w : Nat} (v : BitVec w) (n : Fin N) (h : v.toInt = (n.val : Int)) :
    clampRow N hN v = n := by
  apply Fin.ext
  show min v.toInt.toNat (N - 1) = n.val
  have := n.isLt
  rw [h]; omega

variable {α : Type}

/-! ## Rows of a matrix: operand [N, C], row numbers [M, 1], result [M, C] -/

/-- The dimension numbers of `x[idx]` for a matrix: the result's second axis is the slice's (offset axis 1), operand
    axis 0 is collapsed and is the one the start index addresses, the slice is one whole row. Their conditions `wf`
    are decided on a program's literal shapes. -/
abbrev rowDims (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `idx[e, 0]` (signed, clamped) and column `c`. -/
theorem gather_rows_apply {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (c : Fin C) :
    Host.gather (rowDims N C M wf) x idx (ix2 e c) = x (ix2 (clampRow N hN (idx (ix2 e (0 : Fin 1)))) c) := by
  have h0 : (rowDims N C M wf).start (ix2 e c) idx (0 : Fin 2) + (rowDims N C M wf).batchCoord (ix2 e c) (0 : Fin 2)
      + (rowDims N C M wf).offCoord (ix2 e c) (0 : Fin 2) = (clampRow N hN (idx (ix2 e (0 : Fin 1)))).val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C M wf).startIndexMap from List.mem_singleton.mpr rfl)]
    have hsi : (rowDims N C M wf).siIdx (ix2 e c) ⟨List.idxOf (0 : Fin 2) (rowDims N C M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have h1 : (rowDims N C M wf).start (ix2 e c) idx (1 : Fin 2) + (rowDims N C M wf).batchCoord (ix2 e c) (1 : Fin 2)
      + (rowDims N C M wf).offCoord (ix2 e c) (1 : Fin 2) = c.val := by
    rw [GatherDims.batchCoord_eq_zero _ _ _ List.not_mem_nil]
    simp only [Nat.add_zero]
    unfold GatherDims.start
    rw [dif_neg (show (1 : Fin 2) ∉ (rowDims N C M wf).startIndexMap from
      fun h => absurd (show (1 : Nat) = 0 from congrArg Fin.val (List.mem_singleton.mp h)) (by decide)), Nat.zero_add]
    rfl
  unfold Host.gather
  congr 1
  funext a
  refine Fin.ext ?_
  match a with
  | ⟨0, _⟩ => exact h0
  | ⟨1, _⟩ => exact h1

/-! ## Elements of a vector: operand [N], row numbers [M, 1], result [M] -/

/-- The dimension numbers of `x[idx]` for a vector: no offset axis, the operand's one axis collapsed and addressed by
    the start index, the slice one element. -/
abbrev vecDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at element `idx[e, 0]` (signed, clamped) — the same row the matrix
    gather reads. -/
theorem gather_vec_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (vecDims N M wf) x idx (ix1 e) = x (ix1 (clampRow N hN (idx (ix2 e (0 : Fin 1))))) := by
  unfold Host.gather
  congr 1
  funext a
  obtain rfl : a = 0 := Subsingleton.elim _ _
  refine Fin.ext ?_
  show (vecDims N M wf).start (ix1 e) idx 0 + (vecDims N M wf).batchCoord (ix1 e) 0
    + (vecDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N M wf).startIndexMap from List.mem_singleton.mpr rfl)]
  have hsi : (vecDims N M wf).siIdx (ix1 e) ⟨List.idxOf (0 : Fin 1) (vecDims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.GatherRows
-- ==== Proof.LibDegreeFactor.lean ====
/-
  Two facts about a graph given by row numbers, used to normalise a neighbourhood sum by degrees.

  The factor of a node is the reciprocal square root of one plus the number of edges arriving at it. One plus a count
  is a positive real, so at the ideal values the factor is a nonnegative real: in particular it is not +∞, which is
  what lets it be moved across sums of arbitrary extended reals.

  A row number read as a signed word names the node n exactly when its signed value is n. Such a word is not negative,
  so the usual adjustment of negative row numbers (add the node count to a negative number, keep the others) leaves it
  alone, and clamping it into the nodes gives n back. So an edge counted at node n by its destination number also reads
  node n when that number is used, adjusted and clamped, to look a value up.
-/
import Idealize.ShloMosaic.PureOps.Ideal.Laws
import Idealize.ShloMosaic.Lib.ValueIdx

noncomputable section

namespace Cert.DegreeFactor

open Idealize.ShloMosaic
open scoped BigOperators

/-- The reciprocal square root of one plus a count is a nonnegative extended real other than +∞. -/
theorem rsqrt_succ_count {ι : Type*} (t : Finset ι) :
    0 ≤ Ideal.rsqrt ((0 + ∑ _i ∈ t, (1 : EReal)) + 1) ∧ Ideal.rsqrt ((0 + ∑ _i ∈ t, (1 : EReal)) + 1) ≠ ⊤ := by
  have hsum : ((0 : EReal) + ∑ _i ∈ t, (1 : EReal)) + 1 = (((t.card : ℝ) + 1 : ℝ) : EReal) := by
    rw [zero_add, Finset.sum_const, nsmul_one, EReal.coe_add, EReal.coe_one, EReal.coe_natCast]
  have hpos : (0 : ℝ) < (t.card : ℝ) + 1 := by positivity
  rw [hsum, Ideal.rsqrt_coe, if_neg (not_lt.mpr hpos.le), if_neg hpos.ne']
  exact ⟨EReal.coe_nonneg.mpr (inv_nonneg.mpr (Real.sqrt_nonneg _)), EReal.coe_ne_top _⟩

/-- A negative row number moved up by `K`, the others kept. -/
def wrapWord (K w : BitVec 32) : BitVec 32 :=
  Scalar.select (IntOp.cmpi .slt w 0#32) (IntOp.addi w K) w

/-- A row number that is not negative is kept. -/
theorem wrapWord_of_nonneg (K w : BitVec 32) (h : 0 ≤ w.toInt) : wrapWord K w = w := by
  unfold wrapWord
  have hs : IntOp.cmpi .slt w 0#32 = 0#1 := by
    unfold IntOp.cmpi
    have : w.slt 0#32 = false := by
      rw [BitVec.slt]
      simp only [BitVec.toInt_zero, decide_eq_false_iff_not, not_lt]
      exact h
    simp only [this]
    rfl
  rw [hs]
  exact ValueIdx.select_zero _ _

end Cert.DegreeFactor
-- ==== Proof.RefRead.lean ====
/-
  The whole-array program read layer by layer, on extended reals.

  The program is a three-layer graph network on 100000 nodes. Each of its dense layers, read at a node p and an output
  feature q, is `lin` of that node's input row: Σ_k h_k · w_{k q} + b_q. Between two dense layers the aggregated row a of
  a node is divided by the larger of its Euclidean length and a small constant, and the positive part of every entry is
  kept (`unit`); the aggregated row itself is 0 · (the node's own dense row) + 1 · (the sum over the edges arriving at the
  node of the scaled rows of their sources). The factor of a node — the reciprocal square root of its degree where the
  degree is positive, zero elsewhere — is a nonnegative extended real other than +∞ whatever the degree is. An edge whose
  destination number, read signed, is the node n also reads node n when that number is adjusted (negative numbers moved
  up by the node count) and clamped into the nodes. The program recomputes the adjusted columns of row numbers at each
  use; the copies are the same arrays.
-/
import proofs.«128727_j64132451664423_2_alg».proof.Proof.RefReadP
import proofs.«128727_j64132451664423_2_alg».proof.Proof.Spec
import proofs.«128727_j64132451664423_2_alg».proof.Proof.LibDenseLayer
import proofs.«128727_j64132451664423_2_alg».proof.Proof.LibDenseRows
import proofs.«128727_j64132451664423_2_alg».proof.Proof.LibGatherRows
import proofs.«128727_j64132451664423_2_alg».proof.Proof.LibDegreeFactor

noncomputable section

namespace Cert.ReferenceIdeal.RefRead

open Cert.ReferenceIdeal Cert.ReferenceIdeal.ReadP Idealize.ShloMosaic Idealize.ShloMosaic.ValueIdx Cert.DenseLayer Cert.Gcn
open scoped BigOperators

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S128x64, .f32⟩ : BufTy).Contents (Elt Ideal)) (x7 : (⟨S64, .f32⟩ : BufTy).Contents (Elt Ideal))

/-! ## The first dense layer -/

/-- The first dense layer at node `p`, feature `q`: `lin` of the node's input row. -/
theorem h1_apply (p : Fin 100000) (q : Fin 128) :
    val_main_v18 (F := Ideal) x0 x2 x3 (ix2 p q)
      = lin (fun k => x0 (ix2 p k)) (fun k j => x2 (ix2 k j)) (fun j => x3 (ix1 j)) q := by
  rw [val_main_v18_apply, val_main_v15_apply, val_main_v17_apply, val_main_v16_apply]
  have el : ∀ k : Fin 128, lidx_main_v15 (ix2 p q) k = ix2 p k := fun k =>
    funext fun a => Fin.ext (by match a with | ⟨0, _⟩ => rfl | ⟨1, _⟩ => rfl)
  have er : ∀ k : Fin 128, ridx_main_v15 (ix2 p q) k = ix2 k q := fun k =>
    funext fun a => Fin.ext (by match a with | ⟨0, _⟩ => rfl | ⟨1, _⟩ => rfl)
  have eb : idx_main_v16 (idx_main_v17 (ix2 p q)) = ix1 q :=
    funext fun a => Fin.ext (by match a with | ⟨0, _⟩ => rfl)
  simp only [el, er, eb]
  rfl

/-! ## The factor of a node -/

/-- For any extended real `d`, "the reciprocal square root of `d` where `d > 0`, zero elsewhere" is a nonnegative extended
    real other than +∞: the reciprocal square root of +∞ is 0 and that of a positive real is a positive real. -/
theorem factor_good (d : EReal) :
    0 ≤ Scalar.select (Ideal.cmp .ogt d (Ideal.ofBits .f32 0x00000000#32)) (Ideal.rsqrt d) (Ideal.ofBits .f32 0x00000000#32)
    ∧ Scalar.select (Ideal.cmp .ogt d (Ideal.ofBits .f32 0x00000000#32)) (Ideal.rsqrt d) (Ideal.ofBits .f32 0x00000000#32) ≠ ⊤ := by
  rw [Ideal.ofBits_zero_f32]
  by_cases h : (0 : EReal) < d
  · have hc : Ideal.cmp .ogt d 0 = 1#1 := by
      unfold Ideal.cmp
      simp only [h, decide_true]
      rfl
    rw [hc, ValueIdx.select_one]
    induction d using EReal.rec with
    | bot => exact absurd h (by simp)
    | top => rw [Ideal.rsqrt_top]; exact ⟨le_refl _, EReal.zero_ne_top⟩
    | coe r =>
      have hr : 0 < r := by exact_mod_cast h
      rw [Ideal.rsqrt_coe, if_neg (not_lt.mpr hr.le), if_neg hr.ne']
      exact ⟨EReal.coe_nonneg.mpr (inv_nonneg.mpr (Real.sqrt_nonneg _)), EReal.coe_ne_top _⟩
  · have hc : Ideal.cmp .ogt d 0 = 0#1 := by
      unfold Ideal.cmp
      simp only [h, decide_false]
      rfl
    rw [hc, ValueIdx.select_zero]
    exact ⟨le_refl _, EReal.zero_ne_top⟩

/-- The factor of every node is a nonnegative extended real other than +∞, whatever its degree. -/
theorem dinv_good (i : S100000.Idx) :
    0 ≤ val_main_v14 (F := Ideal) x1 i ∧ val_main_v14 (F := Ideal) x1 i ≠ ⊤ := by
  rw [val_main_v14_apply, val_main_v12_apply, val_main_v13_apply, val_main_call0_v1_apply, val_main_call0_v0_apply,
    val_main_cst_2_apply, val_main_v11_apply, val_main_cst_1_apply]
  generalize val_main_v10 (F := Ideal) x1 i = d
  rw [Ideal.cmpf_def, Ideal.hostUnary_rsqrt_def, Ideal.ofBits_def]
  exact factor_good d

/-! ## The aggregated rows -/

/-- The first aggregated row: 0 · (the node's own dense row) + 1 · (the sum over its arriving edges). -/
theorem g1_apply (n : Fin 100000) (c : Fin 128) :
    val_main_v51 (F := Ideal) x0 x1 x2 x3 (ix2 n c)
      = zw * val_main_v18 (F := Ideal) x0 x2 x3 (ix2 n c) + one * val_main_v46 (F := Ideal) x0 x1 x2 x3 (ix2 n c) := by
  rw [val_main_v51_apply, val_main_v48_apply, val_main_v50_apply, val_main_v47_apply, val_main_v49_apply,
    val_main_cst_9_apply, val_main_cst_10_apply]
  rfl

/-- The second aggregated row, the same one layer later. -/
theorem g2_apply (n : Fin 100000) (c : Fin 128) :
    val_main_v97 (F := Ideal) x0 x1 x2 x3 x4 x5 (ix2 n c)
      = zw * val_main_v64 (F := Ideal) x0 x1 x2 x3 x4 x5 (ix2 n c)
        + one * val_main_v92 (F := Ideal) x0 x1 x2 x3 x4 x5 (ix2 n c) := by
  rw [val_main_v97_apply, val_main_v94_apply, val_main_v96_apply, val_main_v93_apply, val_main_v95_apply,
    val_main_cst_20_apply, val_main_cst_21_apply]
  rfl

/-! ## Row-normalise, positive part, dense layer -/

/-- The first normalised row at node `p`, entry `k`: `unit` of the node's aggregated row. -/
theorem act1_apply (p : Fin 100000) (k : Fin 128) :
    val_main_v60 (F := Ideal) x0 x1 x2 x3 (ix2 p k)
      = unit (fun j => val_main_v51 (F := Ideal) x0 x1 x2 x3 (ix2 p j)) k := by
  rw [val_main_v60_apply, val_main_v59_apply, val_main_call1_v0_apply, val_main_call1_cst_apply, val_main_v58_apply,
    val_main_v57_apply, val_main_v55_apply, val_main_v54_apply, val_main_v53_apply, val_main_v56_apply,
    val_main_cst_12_apply, val_main_cst_11_apply]
  have ei : ∀ j : Fin 128, idx_main_v53 (idx_main_v54 (idx_main_v58 (ix2 p k))) j = ix2 p j := fun j =>
    funext fun a => Fin.ext (by match a with | ⟨0, _⟩ => rfl | ⟨1, _⟩ => rfl)
  simp only [ei, val_main_v52_apply]
  simp only [Ideal.ofBits_def, Ideal.mulf_def, Ideal.hostDivf_def, Ideal.hostUnary_sqrt_def, Ideal.maximumf_def,
    Ideal.ofBits_zero_f32, zero_add, unit, eps, zw]

/-- The second dense layer at node `p`, feature `q`: `lin` of the node's normalised aggregated row. -/
theorem h2_apply (p : Fin 100000) (q : Fin 128) :
    val_main_v64 (F := Ideal) x0 x1 x2 x3 x4 x5 (ix2 p q)
      = lin (unit (fun k => val_main_v51 (F := Ideal) x0 x1 x2 x3 (ix2 p k))) (fun k j => x4 (ix2 k j))
          (fun j => x5 (ix1 j)) q := by
  rw [val_main_v64_apply, val_main_v61_apply, val_main_v63_apply, val_main_v62_apply]
  have el : ∀ k : Fin 128, lidx_main_v61 (ix2 p q) k = ix2 p k := fun k =>
    funext fun a => Fin.ext (by match a with | ⟨0, _⟩ => rfl | ⟨1, _⟩ => rfl)
  have er : ∀ k : Fin 128, ridx_main_v61 (ix2 p q) k = ix2 k q := fun k =>
    funext fun a => Fin.ext (by match a with | ⟨0, _⟩ => rfl | ⟨1, _⟩ => rfl)
  have eb : idx_main_v62 (idx_main_v63 (ix2 p q)) = ix1 q :=
    funext fun a => Fin.ext (by match a with | ⟨0, _⟩ => rfl)
  simp only [el, er, eb, act1_apply]
  rfl

/-- The second normalised row at node `p`, entry `k`. -/
theorem act2_apply (p : Fin 100000) (k : Fin 128) :
    val_main_v106 (F := Ideal) x0 x1 x2 x3 x4 x5 (ix2 p k)
      = unit (fun j => val_main_v97 (F := Ideal) x0 x1 x2 x3 x4 x5 (ix2 p j)) k := by
  rw [val_main_v106_apply, val_main_v105_apply, val_main_call2_v0_apply, val_main_call2_cst_apply, val_main_v104_apply,
    val_main_v103_apply, val_main_v101_apply, val_main_v100_apply, val_main_v99_apply, val_main_v102_apply,
    val_main_cst_23_apply, val_main_cst_22_apply]
  have ei : ∀ j : Fin 128, idx_main_v99 (idx_main_v100 (idx_main_v104 (ix2 p k))) j = ix2 p j := fun j =>
    funext fun a => Fin.ext (by match a with | ⟨0, _⟩ => rfl | ⟨1, _⟩ => rfl)
  simp only [ei, val_main_v98_apply]
  simp only [Ideal.ofBits_def, Ideal.mulf_def, Ideal.hostDivf_def, Ideal.hostUnary_sqrt_def, Ideal.maximumf_def,
    Ideal.ofBits_zero_f32, zero_add, unit, eps, zw]

/-- The last dense layer at node `p`, feature `q`. -/
theorem out_apply (p : Fin 100000) (q : Fin 64) :
    val_main_v110 (F := Ideal) x0 x1 x2 x3 x4 x5 x6 x7 (ix2 p q)
      = lin (unit (fun k => val_main_v97 (F := Ideal) x0 x1 x2 x3 x4 x5 (ix2 p k))) (fun k j => x6 (ix2 k j))
          (fun j => x7 (ix1 j)) q := by
  rw [val_main_v110_apply, val_main_v107_apply, val_main_v109_apply, val_main_v108_apply]
  have el : ∀ k : Fin 128, lidx_main_v107 (ix2 p q) k = ix2 p k := fun k =>
    funext fun a => Fin.ext (by match a with | ⟨0, _⟩ => rfl | ⟨1, _⟩ => rfl)
  have er : ∀ k : Fin 128, ridx_main_v107 (ix2 p q) k = ix2 k q := fun k =>
    funext fun a => Fin.ext (by match a with | ⟨0, _⟩ => rfl | ⟨1, _⟩ => rfl)
  have eb : idx_main_v108 (idx_main_v109 (ix2 p q)) = ix1 q :=
    funext fun a => Fin.ext (by match a with | ⟨0, _⟩ => rfl)
  simp only [el, er, eb, act2_apply]
  rfl

/-! ## Row numbers -/

/-- An edge whose destination number, read signed, is the node `n` reads node `n` through the adjusted and clamped number:
    a number that is not negative is kept by the adjustment, and clamping `n` into the nodes gives `n`. -/
theorem landing (i : Fin 1700000) (n : Fin 100000)
    (h : (val_main_v45 (F := Ideal) x1 (ix2 i (0 : Fin 1))).toInt = (n.val : Int)) :
    Cert.GatherRows.clampRow 100000 (by decide) (val_main_v31 (F := Ideal) x1 (ix2 i (0 : Fin 1))) = n := by
  rw [val_main_v45_apply] at h
  have h' : (val_main_v6 (F := Ideal) x1 (idx_main_v31 (ix2 i (0 : Fin 1)))).toInt = (n.val : Int) := h
  have hw : val_main_v31 (F := Ideal) x1 (ix2 i (0 : Fin 1))
      = Cert.DegreeFactor.wrapWord 100000#32 (val_main_v6 (F := Ideal) x1 (idx_main_v31 (ix2 i (0 : Fin 1)))) := by
    rw [val_main_v31_apply, val_main_v30_apply, val_main_v27_apply, val_main_v29_apply, val_main_v26_apply,
      val_main_v28_apply, val_main_c_4_apply, val_main_c_5_apply]
    rfl
  rw [hw, Cert.DegreeFactor.wrapWord_of_nonneg _ _ (by rw [h']; exact Int.natCast_nonneg _)]
  exact Cert.GatherRows.clampRow_of_toInt (by decide) _ n h'

/-! ## The recomputed columns of row numbers are the same arrays -/

theorem v24_eq : val_main_v24 (F := Ideal) x1 = val_main_v40 (F := Ideal) x1 := rfl
theorem v70_eq : val_main_v70 (F := Ideal) x1 = val_main_v40 (F := Ideal) x1 := rfl
theorem v86_eq : val_main_v86 (F := Ideal) x1 = val_main_v40 (F := Ideal) x1 := rfl
theorem v77_eq : val_main_v77 (F := Ideal) x1 = val_main_v31 (F := Ideal) x1 := rfl
theorem v91_eq : val_main_v91 (F := Ideal) x1 = val_main_v45 (F := Ideal) x1 := rfl

end Cert.ReferenceIdeal.RefRead

end
-- ==== Proof.LibColumnLayout.lean ====
/-
  Two layout operations read at an index given by coordinates, for a column kept as a trailing unit axis
  (`keepdims=True`): a vector `[a]` cast to a column `[a, 1]`, and a column `[a, 1]` broadcast along the rows of
  `[a, b]`. Each reads one element of its operand: the one with the same row.
-/
import Idealize.ShloMosaic.Lib.ValueLayout

namespace Cert.ColumnLayout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.LibSegmentSum.lean ====
/-
  The host's accumulating scatter, read at an index given by coordinates, at the ideal values, for the dimension
  numbers of a SEGMENT SUM: the scatter indices are a column of N row numbers (shape [N, 1], the index vector along
  the second axis), update row i is added into operand row idx[i] (the scatter axis goes to operand axis 0, which is
  the one inserted window axis), and the update's remaining axis, if any, runs along the operand's columns. An element
  of the result is then the operand's element plus the sum of the update elements in the same column whose row number
  is that element's row: a sum over a filter of Fin N. A row number read signed that is negative or not below the
  operand's row count lands outside and adds nothing, which the filter says by itself, the wanted row being a row.
-/
import Idealize.ShloMosaic.Lib.ValueIdx
import Idealize.ShloMosaic.PureOps.Ideal.Laws

noncomputable section

namespace Cert.SegmentSum

open Idealize.ShloMosaic Idealize.ShloMosaic.ValueIdx
open scoped BigOperators

/-! ## Updates of rows: operand [S, C], updates [N, C] -/

/-- Update element (i, b) lands on operand element (s, c) exactly when row number i, read signed, is s and b = c:
    the start is (row number, 0) and the window coordinate is (0, b), so the landing place is (row number, b), inside
    the operand exactly when the row number is one of its rows. -/
theorem resultIdx?_rows_eq_some_iff {S C N w : ℕ} (d : ScatterDims ⟨2, ![S, C]⟩ ⟨2, ![N, 1]⟩ ⟨2, ![N, C]⟩)
    (hs0 : ∀ (i : Fin N) (b : Fin C) (idx : IVec ⟨2, ![N, 1]⟩ w),
      d.start (ix2 i b) idx (0 : Fin 2) = (idx (ix2 i (0 : Fin 1))).toInt)
    (hs1 : ∀ (i : Fin N) (b : Fin C) (idx : IVec ⟨2, ![N, 1]⟩ w), d.start (ix2 i b) idx (1 : Fin 2) = 0)
    (hw0 : ∀ (i : Fin N) (b : Fin C), d.window (ix2 i b) (0 : Fin 2) = 0)
    (hw1 : ∀ (i : Fin N) (b : Fin C), d.window (ix2 i b) (1 : Fin 2) = b.val)
    (idx : IVec ⟨2, ![N, 1]⟩ w) (i : Fin N) (b : Fin C) (s : Fin S) (c : Fin C) :
    d.resultIdx? (ix2 i b) idx = some (ix2 s c) ↔ (idx (ix2 i (0 : Fin 1))).toInt = (s.val : Int) ∧ b = c := by
  unfold ScatterDims.resultIdx?
  constructor
  · intro h
    split_ifs at h with hr
    have h' := Option.some.inj h
    have h0 : (d.start (ix2 i b) idx (0 : Fin 2) + (d.window (ix2 i b) (0 : Fin 2) : Int)).toNat = s.val :=
      congrArg (fun f : (⟨2, ![S, C]⟩ : Shape).Idx => (f (0 : Fin 2)).val) h'
    have h1 : (d.start (ix2 i b) idx (1 : Fin 2) + (d.window (ix2 i b) (1 : Fin 2) : Int)).toNat = c.val :=
      congrArg (fun f : (⟨2, ![S, C]⟩ : Shape).Idx => (f (1 : Fin 2)).val) h'
    have hr0 := (hr (0 : Fin 2)).1
    rw [hs0, hw0] at h0 hr0
    rw [hs1, hw1] at h1
    refine ⟨by omega, Fin.ext (by omega)⟩
  · rintro ⟨hrow, rfl⟩
    have hr : ∀ a : Fin 2, 0 ≤ d.start (ix2 i b) idx a + (d.window (ix2 i b) a : Int) ∧
        d.start (ix2 i b) idx a + (d.window (ix2 i b) a : Int) < ((⟨2, ![S, C]⟩ : Shape).size a : Int) := by
      intro a
      match a with
      | ⟨0, _⟩ =>
        have e1 := hs0 i b idx
        have e2 := hw0 i b
        have hS : (s.val : Int) < (S : Int) := by exact_mod_cast s.isLt
        show 0 ≤ d.start (ix2 i b) idx (0 : Fin 2) + (d.window (ix2 i b) (0 : Fin 2) : Int) ∧
          d.start (ix2 i b) idx (0 : Fin 2) + (d.window (ix2 i b) (0 : Fin 2) : Int) < (S : Int)
        rw [e1, e2]; omega
      | ⟨1, _⟩ =>
        have e1 := hs1 i b idx
        have e2 := hw1 i b
        have hC : (b.val : Int) < (C : Int) := by exact_mod_cast b.isLt
        show 0 ≤ d.start (ix2 i b) idx (1 : Fin 2) + (d.window (ix2 i b) (1 : Fin 2) : Int) ∧
          d.start (ix2 i b) idx (1 : Fin 2) + (d.window (ix2 i b) (1 : Fin 2) : Int) < (C : Int)
        rw [e1, e2]; omega
    rw [dif_pos hr]
    congr 1
    funext a
    apply Fin.ext
    match a with
    | ⟨0, _⟩ =>
      show (d.start (ix2 i b) idx (0 : Fin 2) + (d.window (ix2 i b) (0 : Fin 2) : Int)).toNat = s.val
      rw [hs0, hw0]; omega
    | ⟨1, _⟩ =>
      show (d.start (ix2 i b) idx (1 : Fin 2) + (d.window (ix2 i b) (1 : Fin 2) : Int)).toNat = b.val
      rw [hs1, hw1]; omega

/-- The accumulating scatter of N update rows into an operand of S rows, at row s and column c: the operand's element
    plus the sum, over the update rows i whose row number (read signed) is s, of the update at (i, c). The hypotheses say
    what the dimension numbers mean: the start is (row number, 0), the window coordinate is (0, update column). The sum
    over the update indices that land on (s, c) is split by coordinates; the column must be c and the row's number s. -/
theorem scatterAdd_rows_apply {S C N w : ℕ} (d : ScatterDims ⟨2, ![S, C]⟩ ⟨2, ![N, 1]⟩ ⟨2, ![N, C]⟩)
    (hs0 : ∀ (i : Fin N) (b : Fin C) (idx : IVec ⟨2, ![N, 1]⟩ w),
      d.start (ix2 i b) idx (0 : Fin 2) = (idx (ix2 i (0 : Fin 1))).toInt)
    (hs1 : ∀ (i : Fin N) (b : Fin C) (idx : IVec ⟨2, ![N, 1]⟩ w), d.start (ix2 i b) idx (1 : Fin 2) = 0)
    (hw0 : ∀ (i : Fin N) (b : Fin C), d.window (ix2 i b) (0 : Fin 2) = 0)
    (hw1 : ∀ (i : Fin N) (b : Fin C), d.window (ix2 i b) (1 : Fin 2) = b.val)
    (x : FVec Ideal ⟨2, ![S, C]⟩ .f32) (idx : IVec ⟨2, ![N, 1]⟩ w) (upd : FVec Ideal ⟨2, ![N, C]⟩ .f32)
    (s : Fin S) (c : Fin C) :
    Host.scatterAdd d x idx upd (ix2 s c) = x (ix2 s c) +
      ∑ i ∈ Finset.univ.filter (fun i : Fin N => (idx (ix2 i (0 : Fin 1))).toInt = (s.val : Int)), upd (ix2 i c) := by
  show x (ix2 s c) + ∑ j ∈ Finset.univ.filter (fun j => d.resultIdx? j idx = some (ix2 s c)), upd j = _
  congr 1
  rw [Finset.sum_filter, Finset.sum_filter, sum_idx2]
  refine Finset.sum_congr rfl fun i _ => ?_
  simp only [resultIdx?_rows_eq_some_iff d hs0 hs1 hw0 hw1]
  by_cases h : (idx (ix2 i (0 : Fin 1))).toInt = (s.val : Int)
  · simp only [h, true_and, if_true]
    rw [Finset.sum_ite_eq' Finset.univ c (fun b => upd (ix2 i b))]
    simp
  · simp only [h, false_and, if_false, Finset.sum_const_zero]

/-! ## Updates of single elements: operand [S], updates [N] -/

/-- A rank-1 index set is its one coordinate range … -/
def idxEquiv1 {n : ℕ} : (⟨1, ![n]⟩ : Shape).Idx ≃ Fin n where
  toFun j := j 0
  invFun i := ix1 i
  left_inv j := (eq_ix1 j).symm
  right_inv _ := rfl

/-- … so a sum over it is the sum over the coordinate. -/
theorem sum_idx1 {M : Type*} [AddCommMonoid M] {n : ℕ} (f : (⟨1, ![n]⟩ : Shape).Idx → M) :
    ∑ j, f j = ∑ i : Fin n, f (ix1 i) := by
  rw [← Equiv.sum_comp (idxEquiv1 (n := n)).symm f]
  rfl

/-- Update element i lands on operand element s exactly when row number i, read signed, is s: the start is the row
    number and there is no window, so the landing place is the row number, inside the operand exactly when it is one of
    its elements. -/
theorem resultIdx?_vec_eq_some_iff {S N w : ℕ} (d : ScatterDims ⟨1, ![S]⟩ ⟨2, ![N, 1]⟩ ⟨1, ![N]⟩)
    (hs0 : ∀ (i : Fin N) (idx : IVec ⟨2, ![N, 1]⟩ w),
      d.start (ix1 i) idx (0 : Fin 1) = (idx (ix2 i (0 : Fin 1))).toInt)
    (hw0 : ∀ (i : Fin N), d.window (ix1 i) (0 : Fin 1) = 0)
    (idx : IVec ⟨2, ![N, 1]⟩ w) (i : Fin N) (s : Fin S) :
    d.resultIdx? (ix1 i) idx = some (ix1 s) ↔ (idx (ix2 i (0 : Fin 1))).toInt = (s.val : Int) := by
  unfold ScatterDims.resultIdx?
  constructor
  · intro h
    split_ifs at h with hr
    have h' := Option.some.inj h
    have h0 : (d.start (ix1 i) idx (0 : Fin 1) + (d.window (ix1 i) (0 : Fin 1) : Int)).toNat = s.val :=
      congrArg (fun f : (⟨1, ![S]⟩ : Shape).Idx => (f (0 : Fin 1)).val) h'
    have hr0 := (hr (0 : Fin 1)).1
    rw [hs0, hw0] at h0 hr0
    omega
  · intro hrow
    have hr : ∀ a : Fin 1, 0 ≤ d.start (ix1 i) idx a + (d.window (ix1 i) a : Int) ∧
        d.start (ix1 i) idx a + (d.window (ix1 i) a : Int) < ((⟨1, ![S]⟩ : Shape).size a : Int) := by
      intro a
      match a with
      | ⟨0, _⟩ =>
        have e1 := hs0 i idx
        have e2 := hw0 i
        have hS : (s.val : Int) < (S : Int) := by exact_mod_cast s.isLt
        show 0 ≤ d.start (ix1 i) idx (0 : Fin 1) + (d.window (ix1 i) (0 : Fin 1) : Int) ∧
          d.start (ix1 i) idx (0 : Fin 1) + (d.window (ix1 i) (0 : Fin 1) : Int) < (S : Int)
        rw [e1, e2]; omega
    rw [dif_pos hr]
    congr 1
    funext a
    apply Fin.ext
    match a with
    | ⟨0, _⟩ =>
      show (d.start (ix1 i) idx (0 : Fin 1) + (d.window (ix1 i) (0 : Fin 1) : Int)).toNat = s.val
      rw [hs0, hw0]; omega

/-- The accumulating scatter of N update elements into an operand of S elements, at element s: the operand's element
    plus the sum, over the update elements i whose row number (read signed) is s, of the update at i. The hypotheses say
    what the dimension numbers mean: the start is the row number, and there is no window. -/
theorem scatterAdd_vec_apply {S N w : ℕ} (d : ScatterDims ⟨1, ![S]⟩ ⟨2, ![N, 1]⟩ ⟨1, ![N]⟩)
    (hs0 : ∀ (i : Fin N) (idx : IVec ⟨2, ![N, 1]⟩ w),
      d.start (ix1 i) idx (0 : Fin 1) = (idx (ix2 i (0 : Fin 1))).toInt)
    (hw0 : ∀ (i : Fin N), d.window (ix1 i) (0 : Fin 1) = 0)
    (x : FVec Ideal ⟨1, ![S]⟩ .f32) (idx : IVec ⟨2, ![N, 1]⟩ w) (upd : FVec Ideal ⟨1, ![N]⟩ .f32) (s : Fin S) :
    Host.scatterAdd d x idx upd (ix1 s) = x (ix1 s) +
      ∑ i ∈ Finset.univ.filter (fun i : Fin N => (idx (ix2 i (0 : Fin 1))).toInt = (s.val : Int)), upd (ix1 i) := by
  show x (ix1 s) + ∑ j ∈ Finset.univ.filter (fun j => d.resultIdx? j idx = some (ix1 s)), upd j = _
  congr 1
  rw [Finset.sum_filter, Finset.sum_filter, sum_idx1]
  refine Finset.sum_congr rfl fun i _ => ?_
  simp only [resultIdx?_vec_eq_some_iff d hs0 hw0]

end Cert.SegmentSum
-- ==== Proof.LibSegmentDims.lean ====
/-
  The dimension numbers of a segment sum, and what they mean: scatter indices [N, 1] with the index vector along the
  second axis, the one index component addressing operand axis 0, which is also the one inserted window axis; for a
  matrix of updates [N, C] the update's second axis is its window axis and runs along the operand's columns, for a
  vector of updates [N] there is no window. So update element (i, b) starts at (row number i, 0) with window coordinate
  (0, b), and update element i of a vector starts at row number i with no window.
-/
import Idealize.ShloMosaic.Lib.ValueIdx

noncomputable section

namespace Cert.SegmentDims

open Idealize.ShloMosaic Idealize.ShloMosaic.ValueIdx

/-! ## Rows: operand [S, C], indices [N, 1], updates [N, C] -/

abbrev rowsDims (S C N : Nat)
    (wf : ScatterDims.WF ⟨2, ![S, C]⟩ ⟨2, ![N, 1]⟩ ⟨2, ![N, C]⟩ [1] [0] [0] 1) :
    ScatterDims ⟨2, ![S, C]⟩ ⟨2, ![N, 1]⟩ ⟨2, ![N, C]⟩ where
  updateWindowDims := [1]
  insertedWindowDims := [0]
  scatterDimsToOperandDims := [0]
  indexVectorDim := 1
  wf := wf

variable {S C N w : Nat}

theorem rows_start0 (wf : ScatterDims.WF ⟨2, ![S, C]⟩ ⟨2, ![N, 1]⟩ ⟨2, ![N, C]⟩ [1] [0] [0] 1)
    (i : Fin N) (b : Fin C) (idx : IVec ⟨2, ![N, 1]⟩ w) :
    (rowsDims S C N wf).start (ix2 i b) idx (0 : Fin 2) = (idx (ix2 i (0 : Fin 1))).toInt := by
  unfold ScatterDims.start
  rw [dif_pos (show (0 : Fin 2) ∈ (rowsDims S C N wf).scatterDimsToOperandDims from List.mem_singleton.mpr rfl)]
  have hsi : (rowsDims S C N wf).siIdx (ix2 i b) ⟨List.idxOf (0 : Fin 2) (rowsDims S C N wf).scatterDimsToOperandDims,
      List.idxOf_lt_length_iff.2 (List.mem_singleton.mpr rfl)⟩ = ix2 i (0 : Fin 1) := by
    funext a; refine Fin.ext ?_
    match a with
    | ⟨0, _⟩ => rfl
    | ⟨1, _⟩ => rfl
  rw [hsi]

theorem rows_start1 (wf : ScatterDims.WF ⟨2, ![S, C]⟩ ⟨2, ![N, 1]⟩ ⟨2, ![N, C]⟩ [1] [0] [0] 1)
    (i : Fin N) (b : Fin C) (idx : IVec ⟨2, ![N, 1]⟩ w) :
    (rowsDims S C N wf).start (ix2 i b) idx (1 : Fin 2) = 0 := by
  unfold ScatterDims.start
  rw [dif_neg (show (1 : Fin 2) ∉ (rowsDims S C N wf).scatterDimsToOperandDims from
    fun h => absurd (show (1 : Nat) = 0 from congrArg Fin.val (List.mem_singleton.mp h)) (by decide))]

theorem rows_window0 (wf : ScatterDims.WF ⟨2, ![S, C]⟩ ⟨2, ![N, 1]⟩ ⟨2, ![N, C]⟩ [1] [0] [0] 1)
    (i : Fin N) (b : Fin C) : (rowsDims S C N wf).window (ix2 i b) (0 : Fin 2) = 0 := by
  unfold ScatterDims.window
  rw [dif_neg]
  intro h
  have : (0 : Fin 2) ∉ (rowsDims S C N wf).insertedWindowDims := by
    simpa [ScatterDims.sKept, Shape.kept, List.mem_filter] using h
  exact this (List.mem_singleton.mpr rfl)

theorem rows_window1 (wf : ScatterDims.WF ⟨2, ![S, C]⟩ ⟨2, ![N, 1]⟩ ⟨2, ![N, C]⟩ [1] [0] [0] 1)
    (i : Fin N) (b : Fin C) : (rowsDims S C N wf).window (ix2 i b) (1 : Fin 2) = b.val := by
  unfold ScatterDims.window
  have h1 : (1 : Fin 2) ∈ (rowsDims S C N wf).sKept := by
    simp [ScatterDims.sKept, Shape.kept, List.mem_filter, List.mem_finRange]
  rw [dif_pos h1]
  rfl

/-! ## Elements: operand [S], indices [N, 1], updates [N] -/

abbrev vecDims (S N : Nat) (wf : ScatterDims.WF ⟨1, ![S]⟩ ⟨2, ![N, 1]⟩ ⟨1, ![N]⟩ [] [0] [0] 1) :
    ScatterDims ⟨1, ![S]⟩ ⟨2, ![N, 1]⟩ ⟨1, ![N]⟩ where
  updateWindowDims := []
  insertedWindowDims := [0]
  scatterDimsToOperandDims := [0]
  indexVectorDim := 1
  wf := wf

theorem vec_start0 (wf : ScatterDims.WF ⟨1, ![S]⟩ ⟨2, ![N, 1]⟩ ⟨1, ![N]⟩ [] [0] [0] 1)
    (i : Fin N) (idx : IVec ⟨2, ![N, 1]⟩ w) :
    (vecDims S N wf).start (ix1 i) idx (0 : Fin 1) = (idx (ix2 i (0 : Fin 1))).toInt := by
  unfold ScatterDims.start
  rw [dif_pos (show (0 : Fin 1) ∈ (vecDims S N wf).scatterDimsToOperandDims from List.mem_singleton.mpr rfl)]
  have hsi : (vecDims S N wf).siIdx (ix1 i) ⟨List.idxOf (0 : Fin 1) (vecDims S N wf).scatterDimsToOperandDims,
      List.idxOf_lt_length_iff.2 (List.mem_singleton.mpr rfl)⟩ = ix2 i (0 : Fin 1) := by
    funext a; refine Fin.ext ?_
    match a with
    | ⟨0, _⟩ => rfl
    | ⟨1, _⟩ => rfl
  rw [hsi]

theorem vec_window0 (wf : ScatterDims.WF ⟨1, ![S]⟩ ⟨2, ![N, 1]⟩ ⟨1, ![N]⟩ [] [0] [0] 1) (i : Fin N) :
    (vecDims S N wf).window (ix1 i) (0 : Fin 1) = 0 := by
  unfold ScatterDims.window
  rw [dif_neg]
  intro h
  have : (0 : Fin 1) ∉ (vecDims S N wf).insertedWindowDims := by
    simpa [ScatterDims.sKept, Shape.kept, List.mem_filter] using h
  exact this (List.mem_singleton.mpr rfl)

end Cert.SegmentDims
-- ==== Proof.LibNonnegDistrib.lean ====
/-
  Multiplication by a nonnegative finite extended real distributes over every finite sum of extended reals, whatever
  the summands are: on the extended reals a product distributes over a sum as soon as the factor is nonnegative and is
  not +∞ (the one sum that is not a sum of reals, +∞ + −∞ = −∞, is kept by such a factor: a positive one keeps both
  infinities, and zero sends every term and the sum to zero). Nothing is asked of the summands, so no finiteness of the
  arrays that supply them is needed.

  From it, the row law of a degree-normalised neighbourhood sum: scaling the neighbours before they are added up and
  the total afterwards, or scaling each neighbour by both factors before adding, give the same row.
-/
import Idealize.ShloMosaic.PureOps.Ideal.Laws

noncomputable section

namespace Cert.NonnegDistrib

open scoped BigOperators

/-- A nonnegative factor that is not +∞ goes inside a finite sum of arbitrary extended reals. -/
theorem mul_sum {ι : Type*} (t : Finset ι) (a : EReal) (ha : 0 ≤ a) (ha' : a ≠ ⊤) (f : ι → EReal) :
    a * ∑ i ∈ t, f i = ∑ i ∈ t, a * f i := by
  classical
  refine Finset.induction_on t ?_ ?_
  · simp
  · intro i t hi ih
    rw [Finset.sum_insert hi, Finset.sum_insert hi, EReal.left_distrib_of_nonneg_of_ne_top ha ha', ih]

/-- THE ROW LAW. For one row with normalising factor `σ` (nonnegative, not +∞), neighbours `e ∈ t` contributing the
    value `g e` with the neighbour's own factor `k e`, and the row's own value `v`:
    `σ · ((0 + Σ g e · k e) + v · σ) = (0 + Σ g e · (k e · σ)) + v · (σ · σ)`. -/
theorem row_law {ι : Type*} (t : Finset ι) (σ : EReal) (hσ : 0 ≤ σ) (hσ' : σ ≠ ⊤) (g k : ι → EReal) (v : EReal) :
    σ * ((0 + ∑ e ∈ t, g e * k e) + v * σ) = (0 + ∑ e ∈ t, g e * (k e * σ)) + v * (σ * σ) := by
  rw [EReal.left_distrib_of_nonneg_of_ne_top hσ hσ', zero_add, zero_add, mul_sum t σ hσ hσ']
  congr 1
  · refine Finset.sum_congr rfl fun e _ => ?_
    rw [mul_left_comm, mul_comm σ (k e)]
  · rw [mul_left_comm]

end Cert.NonnegDistrib
-- ==== Proof.LibEdgeMix.lean ====
/-
  One propagation step of a degree-normalised graph convolution whose self loops are ordinary edges of the edge list,
  generic in the number of nodes N, of channels C and of edges E.

  H : [N, C] is a layer's dense output, s : [N] a factor per node (S : [N, 1] the same factor kept as a column), and
  Sx, Sx', Dx, D : [E, 1] are columns of row numbers: the source rows as the row gather reads them (Sx) and as the
  factor's gather reads them (Sx', the same numbers), the destination rows as the second factor's gather reads them
  (Dx), and the destination rows as the accumulating scatter reads them (D).

  Two ways to aggregate are shown to give the same element at every node n and channel c.
  * Scale first, scale last: Hs holds every row of H times its own node's factor; the rows of Hs at Sx are gathered and
    added up at D, and the total at node n is multiplied by the factor of n.
  * Scale each edge, then mix: the rows of H at Sx are gathered, edge i is multiplied (on the left) by the product of
    the factor gathered at Sx' and the factor gathered at Dx, the edges are added up at D, and the outcome is
    0·H + 1·(that sum), the two constants being the values of the printed words of zero and one.
  An edge that lands at node n (its D number read signed is n) reads node n through Dx, so in the sum of the edges that
  land at n the second factor is s n throughout; s n moves across that sum because it is nonnegative and not +∞
  (such a factor distributes over any finite sum of extended reals), whatever the elements of H are; and 0·x = 0,
  1·x = x for every extended real x.
-/
import proofs.«128727_j64132451664423_2_alg».proof.Proof.LibSegmentSum
import proofs.«128727_j64132451664423_2_alg».proof.Proof.LibSegmentDims
import proofs.«128727_j64132451664423_2_alg».proof.Proof.LibGatherRows
import proofs.«128727_j64132451664423_2_alg».proof.Proof.LibDenseRows
import proofs.«128727_j64132451664423_2_alg».proof.Proof.LibNonnegDistrib
import proofs.«128727_j64132451664423_2_alg».proof.Proof.Spec
import Idealize.ShloMosaic.Lib.IdealHost

noncomputable section

namespace Cert.EdgeMix

open Idealize.ShloMosaic Idealize.ShloMosaic.ValueIdx
open scoped BigOperators

theorem zw_eq : Cert.Gcn.zw = 0 := Ideal.ofBits_zero_f32
theorem one_eq : Cert.Gcn.one = 1 := Ideal.ofBits_one_f32

/-- SCALE FIRST. The accumulating scatter, into a zero operand, of the rows of `Hs` gathered at `Sx`, read at `(n, c)`:
    the sum over the edges `i` that land at node `n` of row `Sx[i]` (signed, clamped) of `H` at column `c` times that
    row's factor. -/
theorem scaled_first_apply {N C E : ℕ} (hN : 0 < N)
    (wfs : ScatterDims.WF ⟨2, ![N, C]⟩ ⟨2, ![E, 1]⟩ ⟨2, ![E, C]⟩ [1] [0] [0] 1)
    (wg2 : GatherDims.WF ⟨2, ![N, C]⟩ ⟨2, ![E, 1]⟩ ⟨2, ![E, C]⟩ [1] [0] [] [0] [] 1 ![1, C])
    (H Hs : FVec Ideal ⟨2, ![N, C]⟩ .f32) (s : FVec Ideal ⟨1, ![N]⟩ .f32)
    (Sx D : IVec ⟨2, ![E, 1]⟩ 32) (z : FVec Ideal ⟨2, ![N, C]⟩ .f32)
    (hHs : ∀ (r : Fin N) (c : Fin C), Hs (ix2 r c) = H (ix2 r c) * s (ix1 r)) (hz : ∀ j, z j = 0)
    (n : Fin N) (c : Fin C) :
    Host.scatterAdd (Cert.SegmentDims.rowsDims N C E wfs) z D
        (Host.gather (Cert.GatherRows.rowDims N C E wg2) Hs Sx) (ix2 n c)
      = 0 + ∑ i ∈ Finset.univ.filter (fun i : Fin E => (D (ix2 i (0 : Fin 1))).toInt = (n.val : Int)),
          H (ix2 (Cert.GatherRows.clampRow N hN (Sx (ix2 i (0 : Fin 1)))) c)
            * s (ix1 (Cert.GatherRows.clampRow N hN (Sx (ix2 i (0 : Fin 1))))) := by
  refine (Cert.SegmentSum.scatterAdd_rows_apply (Cert.SegmentDims.rowsDims N C E wfs)
    (fun i b idx => Cert.SegmentDims.rows_start0 wfs i b idx) (fun i b idx => Cert.SegmentDims.rows_start1 wfs i b idx)
    (Cert.SegmentDims.rows_window0 wfs) (Cert.SegmentDims.rows_window1 wfs) z D _ n c).trans ?_
  rw [hz]
  refine congrArg (fun t : EReal => 0 + t) (Finset.sum_congr rfl fun i _ => ?_)
  rw [Cert.GatherRows.gather_rows_apply hN wg2 Hs Sx i c, hHs]

/-- SCALE EACH EDGE. The accumulating scatter, into a zero operand, of the product of the two gathered factors (laid
    along the row, on the left) with the rows of `H` gathered at `Sx`, read at `(n, c)`. -/
theorem scaled_each_apply {N C E : ℕ} (hN : 0 < N)
    (wfs : ScatterDims.WF ⟨2, ![N, C]⟩ ⟨2, ![E, 1]⟩ ⟨2, ![E, C]⟩ [1] [0] [0] 1)
    (wg2 : GatherDims.WF ⟨2, ![N, C]⟩ ⟨2, ![E, 1]⟩ ⟨2, ![E, C]⟩ [1] [0] [] [0] [] 1 ![1, C])
    (wg1 : GatherDims.WF ⟨1, ![N]⟩ ⟨2, ![E, 1]⟩ ⟨1, ![E]⟩ [] [0] [] [0] [] 1 ![1])
    (hE1 : (⟨1, ![E]⟩ : Shape).BroadcastsInDim ⟨2, ![E, 1]⟩ ![0])
    (hEC : (⟨2, ![E, 1]⟩ : Shape).BroadcastsInDim ⟨2, ![E, C]⟩ ![0, 1])
    (H : FVec Ideal ⟨2, ![N, C]⟩ .f32) (s : FVec Ideal ⟨1, ![N]⟩ .f32)
    (Sx Sx' Dx D : IVec ⟨2, ![E, 1]⟩ 32) (z : FVec Ideal ⟨2, ![N, C]⟩ .f32) (hz : ∀ j, z j = 0) (n : Fin N) (c : Fin C) :
    Host.scatterAdd (Cert.SegmentDims.rowsDims N C E wfs) z D
        (mulf (broadcastInDim ⟨2, ![E, C]⟩ ![0, 1] hEC (broadcastInDim ⟨2, ![E, 1]⟩ ![0] hE1
            (mulf (Host.gather (Cert.GatherRows.vecDims N E wg1) s Sx') (Host.gather (Cert.GatherRows.vecDims N E wg1) s Dx))))
          (Host.gather (Cert.GatherRows.rowDims N C E wg2) H Sx))
        (ix2 n c)
      = 0 + ∑ i ∈ Finset.univ.filter (fun i : Fin E => (D (ix2 i (0 : Fin 1))).toInt = (n.val : Int)),
          (s (ix1 (Cert.GatherRows.clampRow N hN (Sx' (ix2 i (0 : Fin 1)))))
              * s (ix1 (Cert.GatherRows.clampRow N hN (Dx (ix2 i (0 : Fin 1))))))
            * H (ix2 (Cert.GatherRows.clampRow N hN (Sx (ix2 i (0 : Fin 1)))) c) := by
  refine (Cert.SegmentSum.scatterAdd_rows_apply (Cert.SegmentDims.rowsDims N C E wfs)
    (fun i b idx => Cert.SegmentDims.rows_start0 wfs i b idx) (fun i b idx => Cert.SegmentDims.rows_start1 wfs i b idx)
    (Cert.SegmentDims.rows_window0 wfs) (Cert.SegmentDims.rows_window1 wfs) z D _ n c).trans ?_
  rw [hz]
  refine congrArg (fun t : EReal => 0 + t) (Finset.sum_congr rfl fun i _ => ?_)
  rw [mulf_apply, Cert.GatherRows.gather_rows_apply hN wg2 H Sx i c,
    Cert.DenseRows.broadcastInDim_a1_ab_apply _ hEC i c, Cert.DenseRows.broadcastInDim_a_a1_apply _ hE1 i (0 : Fin 1),
    mulf_apply, Cert.GatherRows.gather_vec_apply hN wg1 s Sx' i, Cert.GatherRows.gather_vec_apply hN wg1 s Dx i]

/-- THE AGGREGATION LAW: scaling first and last gives the element the reference's mix of the edge-scaled sum gives. -/
theorem mix_law {N C E : ℕ} (hN : 0 < N)
    (wfs : ScatterDims.WF ⟨2, ![N, C]⟩ ⟨2, ![E, 1]⟩ ⟨2, ![E, C]⟩ [1] [0] [0] 1)
    (wg2 : GatherDims.WF ⟨2, ![N, C]⟩ ⟨2, ![E, 1]⟩ ⟨2, ![E, C]⟩ [1] [0] [] [0] [] 1 ![1, C])
    (wg1 : GatherDims.WF ⟨1, ![N]⟩ ⟨2, ![E, 1]⟩ ⟨1, ![E]⟩ [] [0] [] [0] [] 1 ![1])
    (hE1 : (⟨1, ![E]⟩ : Shape).BroadcastsInDim ⟨2, ![E, 1]⟩ ![0])
    (hEC : (⟨2, ![E, 1]⟩ : Shape).BroadcastsInDim ⟨2, ![E, C]⟩ ![0, 1])
    (H Hs : FVec Ideal ⟨2, ![N, C]⟩ .f32) (s : FVec Ideal ⟨1, ![N]⟩ .f32) (S : FVec Ideal ⟨2, ![N, 1]⟩ .f32)
    (Sx Sx' Dx D : IVec ⟨2, ![E, 1]⟩ 32) (z z' : FVec Ideal ⟨2, ![N, C]⟩ .f32)
    (hgood : ∀ n : Fin N, 0 ≤ s (ix1 n) ∧ s (ix1 n) ≠ ⊤) (hS : ∀ n : Fin N, S (ix2 n (0 : Fin 1)) = s (ix1 n))
    (hHs : ∀ (r : Fin N) (c : Fin C), Hs (ix2 r c) = H (ix2 r c) * s (ix1 r))
    (hz : ∀ j, z j = 0) (hz' : ∀ j, z' j = 0)
    (hSx : ∀ i : Fin E, Sx' (ix2 i (0 : Fin 1)) = Sx (ix2 i (0 : Fin 1)))
    (hDx : ∀ (i : Fin E) (n : Fin N), (D (ix2 i (0 : Fin 1))).toInt = (n.val : Int) →
      Cert.GatherRows.clampRow N hN (Dx (ix2 i (0 : Fin 1))) = n)
    (n : Fin N) (c : Fin C) :
    Host.scatterAdd (Cert.SegmentDims.rowsDims N C E wfs) z D
        (Host.gather (Cert.GatherRows.rowDims N C E wg2) Hs Sx) (ix2 n c) * S (ix2 n (0 : Fin 1))
      = Cert.Gcn.zw * H (ix2 n c) + Cert.Gcn.one *
          Host.scatterAdd (Cert.SegmentDims.rowsDims N C E wfs) z' D
            (mulf (broadcastInDim ⟨2, ![E, C]⟩ ![0, 1] hEC (broadcastInDim ⟨2, ![E, 1]⟩ ![0] hE1
                (mulf (Host.gather (Cert.GatherRows.vecDims N E wg1) s Sx') (Host.gather (Cert.GatherRows.vecDims N E wg1) s Dx))))
              (Host.gather (Cert.GatherRows.rowDims N C E wg2) H Sx)) (ix2 n c) := by
  rw [scaled_first_apply hN wfs wg2 H Hs s Sx D z hHs hz n c,
    scaled_each_apply hN wfs wg2 wg1 hE1 hEC H s Sx Sx' Dx D z' hz' n c, hS n, zw_eq, one_eq, zero_mul, one_mul,
    zero_add, zero_add, zero_add, mul_comm, Cert.NonnegDistrib.mul_sum _ _ (hgood n).1 (hgood n).2]
  refine Finset.sum_congr rfl fun i hi => ?_
  rw [hDx i n (Finset.mem_filter.mp hi).2, hSx i, mul_comm (H _) _, ← mul_assoc, mul_comm (s (ix1 n)) _]

end Cert.EdgeMix

end
-- ==== Proof.KernelHost.lean ====
/-
  The idealized kernel's host operations, read at the buffers the three regions take.

  Before the first region the program computes, from the edge list alone, the two columns of row numbers every
  aggregation uses (the sources and the destinations, each followed by the nodes' own numbers for the self loops) and
  the per-node factor select(deg > 0, rsqrt deg, 0); between the regions it gathers the rows a region wrote at the
  (adjusted) source numbers and adds them up at the destination numbers. These are the reference's own first
  operations, spelt with the same operations in the same order, so each buffer is stated here as the stage of the
  reference's program that computes it (the stages `val_main_vN`), applied to the kernel's edge list.
-/
import proofs.«128727_j64132451664423_2_alg».proof.Proof.Gen.KernelIdeal.Frame
import proofs.«128727_j64132451664423_2_alg».proof.Proof.RefReadP
import Idealize.ShloMosaic.Lib.StableHlo.Run

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg) (c : Dev nD)

/-! ## Before the first region -/

/-- The source numbers, self loops appended. -/
theorem W3_v3 : W3 m ρ c (Proc.devRef .tc main_v3) = val_main_v3 (F := Ideal) (m ((c : Thread nD τ).loc main_arg1)) := by
  show after hostOps0_2 (after hostOps0_1 (after hostOps0 (W0 m ρ c))) (Proc.devRef .tc main_v3) = _
  dsimp only [hostOps0_2, hostOps0_1, hostOps0]
  after_results
  rfl

/-- The destination numbers, self loops appended. -/
theorem W3_v6 : W3 m ρ c (Proc.devRef .tc main_v6) = val_main_v6 (F := Ideal) (m ((c : Thread nD τ).loc main_arg1)) := by
  show after hostOps0_2 (after hostOps0_1 (after hostOps0 (W0 m ρ c))) (Proc.devRef .tc main_v6) = _
  dsimp only [hostOps0_2, hostOps0_1, hostOps0]
  after_results
  rfl

/-- The first bias, as a row. -/
theorem W3_v16 : W3 m ρ c (Proc.devRef .tc main_v16)
    = shapeCast S1x128 (m ((c : Thread nD τ).loc main_arg3)) shapeCasts_S128_S1x128 := by
  show after hostOps0_2 (after hostOps0_1 (after hostOps0 (W0 m ρ c))) (Proc.devRef .tc main_v16) = _
  dsimp only [hostOps0_2, hostOps0_1, hostOps0]
  after_results
  rfl

theorem W3_arg0 : W3 m ρ c (Proc.devRef .tc main_arg0) = m ((c : Thread nD τ).loc main_arg0) := by
  show after hostOps0_2 (after hostOps0_1 (after hostOps0 (W0 m ρ c))) (Proc.devRef .tc main_arg0) = _
  dsimp only [hostOps0_2, hostOps0_1, hostOps0]
  after_results

theorem W3_arg2 : W3 m ρ c (Proc.devRef .tc main_arg2) = m ((c : Thread nD τ).loc main_arg2) := by
  show after hostOps0_2 (after hostOps0_1 (after hostOps0 (W0 m ρ c))) (Proc.devRef .tc main_arg2) = _
  dsimp only [hostOps0_2, hostOps0_1, hostOps0]
  after_results

end Cert.KernelIdeal.HostValue

end
-- ==== Proof.KernelHost2.lean ====
/-
  The idealized kernel's host operations between its regions, read at the buffers the second and third regions take.

  After a region has written its rows, the program gathers those rows at the (adjusted) source numbers and adds them up
  at the destination numbers into a zero array; the per-node factor column, computed once before the first region,
  bypasses every region (a region reads it through an input window and never writes it). Each buffer is stated as the
  reference's own stage of the same name where the two programs compute the same thing from the edge list.
-/
import proofs.«128727_j64132451664423_2_alg».proof.Proof.KernelHost

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg) (c : Dev nD)

/-! ## What the first region leaves untouched -/

theorem W4_v3 : W4 m ρ c (Proc.devRef .tc main_v3) = val_main_v3 (F := Ideal) (m ((c : Thread nD τ).loc main_arg1)) :=
  (W4_of_ne m ρ c main_v3 (by decide)).trans (W3_v3 m ρ c)

theorem W4_v6 : W4 m ρ c (Proc.devRef .tc main_v6) = val_main_v6 (F := Ideal) (m ((c : Thread nD τ).loc main_arg1)) :=
  (W4_of_ne m ρ c main_v6 (by decide)).trans (W3_v6 m ρ c)

/-- The factor column is an input of the first region: it leaves it as it found it. -/
theorem W4_v15 : W4 m ρ c (Proc.devRef .tc main_v15) = W3 m ρ c (Proc.devRef .tc main_v15) :=
  (W4_arr m ρ c 3).trans (((dat0 (V3 m ρ) c).arrAt_in 3 rfl _).trans (A_eq0 (V3 m ρ) c 3))

theorem W3_arg4 : W3 m ρ c (Proc.devRef .tc main_arg4) = m ((c : Thread nD τ).loc main_arg4) := by
  show after hostOps0_2 (after hostOps0_1 (after hostOps0 (W0 m ρ c))) (Proc.devRef .tc main_arg4) = _
  dsimp only [hostOps0_2, hostOps0_1, hostOps0]
  after_results
theorem W3_arg5 : W3 m ρ c (Proc.devRef .tc main_arg5) = m ((c : Thread nD τ).loc main_arg5) := by
  show after hostOps0_2 (after hostOps0_1 (after hostOps0 (W0 m ρ c))) (Proc.devRef .tc main_arg5) = _
  dsimp only [hostOps0_2, hostOps0_1, hostOps0]
  after_results
theorem W3_arg6 : W3 m ρ c (Proc.devRef .tc main_arg6) = m ((c : Thread nD τ).loc main_arg6) := by
  show after hostOps0_2 (after hostOps0_1 (after hostOps0 (W0 m ρ c))) (Proc.devRef .tc main_arg6) = _
  dsimp only [hostOps0_2, hostOps0_1, hostOps0]
  after_results
theorem W3_arg7 : W3 m ρ c (Proc.devRef .tc main_arg7) = m ((c : Thread nD τ).loc main_arg7) := by
  show after hostOps0_2 (after hostOps0_1 (after hostOps0 (W0 m ρ c))) (Proc.devRef .tc main_arg7) = _
  dsimp only [hostOps0_2, hostOps0_1, hostOps0]
  after_results

theorem W4_arg4 : W4 m ρ c (Proc.devRef .tc main_arg4) = m ((c : Thread nD τ).loc main_arg4) :=
  (W4_of_ne m ρ c main_arg4 (by decide)).trans (W3_arg4 m ρ c)
theorem W4_arg5 : W4 m ρ c (Proc.devRef .tc main_arg5) = m ((c : Thread nD τ).loc main_arg5) :=
  (W4_of_ne m ρ c main_arg5 (by decide)).trans (W3_arg5 m ρ c)
theorem W4_arg6 : W4 m ρ c (Proc.devRef .tc main_arg6) = m ((c : Thread nD τ).loc main_arg6) :=
  (W4_of_ne m ρ c main_arg6 (by decide)).trans (W3_arg6 m ρ c)
theorem W4_arg7 : W4 m ρ c (Proc.devRef .tc main_arg7) = m ((c : Thread nD τ).loc main_arg7) :=
  (W4_of_ne m ρ c main_arg7 (by decide)).trans (W3_arg7 m ρ c)

/-! ## The second region's entry -/

/-- The first aggregate: the first region's rows gathered at the adjusted source numbers and added up at the
    destination numbers, into zeros. -/
theorem W5_v27 : (W5 m ρ c (Proc.devRef .tc main_v27) : FVec Ideal S100000x128 .f32)
    = Host.scatterAdd (F := Ideal) (φ := .f32) scatter_S100000x128_S1700000x1_S1700000x128_1_0_0_1 (val_main_v44 (F := Ideal))
        (val_main_v45 (F := Ideal) (m ((c : Thread nD τ).loc main_arg1)))
        (Host.gather (α := Ideal .f32) gather_S100000x128_S1700000x1_S1700000x128_1_0_n_n_0_1_1128 (W4 m ρ c (Proc.devRef .tc main_v17) : FVec Ideal S100000x128 .f32)
          (val_main_v40 (F := Ideal) (m ((c : Thread nD τ).loc main_arg1)))) := by
  show after hostOps1 (W4 m ρ c) (Proc.devRef .tc main_v27) = _
  dsimp only [hostOps1]
  after_results
  rw [W4_v3, W4_v6]
  rfl

theorem W5_v15 : W5 m ρ c (Proc.devRef .tc main_v15) = W3 m ρ c (Proc.devRef .tc main_v15) :=
  (show after hostOps1 (W4 m ρ c) (Proc.devRef .tc main_v15) = W4 m ρ c (Proc.devRef .tc main_v15) by
    dsimp only [hostOps1]
    after_results).trans (W4_v15 m ρ c)

theorem W5_v28 : W5 m ρ c (Proc.devRef .tc main_v28)
    = shapeCast S1x128 (m ((c : Thread nD τ).loc main_arg5)) shapeCasts_S128_S1x128 := by
  show after hostOps1 (W4 m ρ c) (Proc.devRef .tc main_v28) = _
  dsimp only [hostOps1]
  after_results
  rw [W4_arg5]
  rfl

theorem W5_arg4 : W5 m ρ c (Proc.devRef .tc main_arg4) = m ((c : Thread nD τ).loc main_arg4) := by
  show after hostOps1 (W4 m ρ c) (Proc.devRef .tc main_arg4) = _
  dsimp only [hostOps1]
  after_results
  exact W4_arg4 m ρ c

theorem W5_v3 : W5 m ρ c (Proc.devRef .tc main_v3) = val_main_v3 (F := Ideal) (m ((c : Thread nD τ).loc main_arg1)) := by
  show after hostOps1 (W4 m ρ c) (Proc.devRef .tc main_v3) = _
  dsimp only [hostOps1]
  after_results
  exact W4_v3 m ρ c

theorem W5_v6 : W5 m ρ c (Proc.devRef .tc main_v6) = val_main_v6 (F := Ideal) (m ((c : Thread nD τ).loc main_arg1)) := by
  show after hostOps1 (W4 m ρ c) (Proc.devRef .tc main_v6) = _
  dsimp only [hostOps1]
  after_results
  exact W4_v6 m ρ c

theorem W5_arg6 : W5 m ρ c (Proc.devRef .tc main_arg6) = m ((c : Thread nD τ).loc main_arg6) := by
  show after hostOps1 (W4 m ρ c) (Proc.devRef .tc main_arg6) = _
  dsimp only [hostOps1]
  after_results
  exact W4_arg6 m ρ c

theorem W5_arg7 : W5 m ρ c (Proc.devRef .tc main_arg7) = m ((c : Thread nD τ).loc main_arg7) := by
  show after hostOps1 (W4 m ρ c) (Proc.devRef .tc main_arg7) = _
  dsimp only [hostOps1]
  after_results
  exact W4_arg7 m ρ c

/-! ## The third region's entry -/

theorem W6_v3 : W6 m ρ c (Proc.devRef .tc main_v3) = val_main_v3 (F := Ideal) (m ((c : Thread nD τ).loc main_arg1)) :=
  (W6_of_ne m ρ c main_v3 (by decide)).trans (W5_v3 m ρ c)
theorem W6_v6 : W6 m ρ c (Proc.devRef .tc main_v6) = val_main_v6 (F := Ideal) (m ((c : Thread nD τ).loc main_arg1)) :=
  (W6_of_ne m ρ c main_v6 (by decide)).trans (W5_v6 m ρ c)
theorem W6_arg6 : W6 m ρ c (Proc.devRef .tc main_arg6) = m ((c : Thread nD τ).loc main_arg6) :=
  (W6_of_ne m ρ c main_arg6 (by decide)).trans (W5_arg6 m ρ c)
theorem W6_arg7 : W6 m ρ c (Proc.devRef .tc main_arg7) = m ((c : Thread nD τ).loc main_arg7) :=
  (W6_of_ne m ρ c main_arg7 (by decide)).trans (W5_arg7 m ρ c)

/-- The factor column is an input of the second region too. -/
theorem W6_v15 : W6 m ρ c (Proc.devRef .tc main_v15) = W3 m ρ c (Proc.devRef .tc main_v15) :=
  ((W6_arr m ρ c 1).trans (((dat1 (V5 m ρ) c).arrAt_in 1 rfl _).trans (A_eq1 (V5 m ρ) c 1))).trans (W5_v15 m ρ c)

/-- The second aggregate. -/
theorem W7_v39 : (W7 m ρ c (Proc.devRef .tc main_v39) : FVec Ideal S100000x128 .f32)
    = Host.scatterAdd (F := Ideal) (φ := .f32) scatter_S100000x128_S1700000x1_S1700000x128_1_0_0_1 (val_main_v44 (F := Ideal))
        (val_main_v45 (F := Ideal) (m ((c : Thread nD τ).loc main_arg1)))
        (Host.gather (α := Ideal .f32) gather_S100000x128_S1700000x1_S1700000x128_1_0_n_n_0_1_1128 (W6 m ρ c (Proc.devRef .tc main_v29) : FVec Ideal S100000x128 .f32)
          (val_main_v40 (F := Ideal) (m ((c : Thread nD τ).loc main_arg1)))) := by
  show after hostOps2 (W6 m ρ c) (Proc.devRef .tc main_v39) = _
  dsimp only [hostOps2]
  after_results
  rw [W6_v3, W6_v6]
  rfl

theorem W7_v15 : W7 m ρ c (Proc.devRef .tc main_v15) = W3 m ρ c (Proc.devRef .tc main_v15) :=
  (show after hostOps2 (W6 m ρ c) (Proc.devRef .tc main_v15) = W6 m ρ c (Proc.devRef .tc main_v15) by
    dsimp only [hostOps2]
    after_results).trans (W6_v15 m ρ c)

theorem W7_v40 : W7 m ρ c (Proc.devRef .tc main_v40)
    = shapeCast S1x64 (m ((c : Thread nD τ).loc main_arg7)) shapeCasts_S64_S1x64 := by
  show after hostOps2 (W6 m ρ c) (Proc.devRef .tc main_v40) = _
  dsimp only [hostOps2]
  after_results
  rw [W6_arg7]
  rfl

theorem W7_arg6 : W7 m ρ c (Proc.devRef .tc main_arg6) = m ((c : Thread nD τ).loc main_arg6) := by
  show after hostOps2 (W6 m ρ c) (Proc.devRef .tc main_arg6) = _
  dsimp only [hostOps2]
  after_results
  exact W6_arg6 m ρ c

end Cert.KernelIdeal.HostValue

end
-- ==== Proof.KernelFactor.lean ====
/-
  The per-node factor of the idealized kernel's program, read as the reference's stage.

  Both programs count, for every node, the edges that arrive at it (self loops included) by adding ones up at the
  destination numbers, and take select(deg > 0, rsqrt deg, 0) of the count; the kernel's program then keeps the factor as
  a column [N, 1]. The two spellings use the same operations in the same order on the same edge list, so the kernel's
  buffer holds the reference's stage `val_main_v14` of the kernel's edge list, as a column.

  The count is an accumulating scatter over 1.7 million edges, so no step below compares two scatters as wholes: the
  count's two spellings are joined operand by operand (the same zeros, the same destination column, the same ones), and
  every later step (the comparison with zero, the inverse square root, the choice between them, the column) is stated
  over the count as an opaque array.
-/
import proofs.«128727_j64132451664423_2_alg».proof.Proof.Gen.KernelIdeal.Frame
import proofs.«128727_j64132451664423_2_alg».proof.Proof.RefReadP
import Idealize.ShloMosaic.Lib.StableHlo.Run

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg) (c : Dev nD)

/-- The two programs print the same dimension numbers for the count's accumulating scatter. -/
theorem scatterVec_eq :
    scatter_S100000_S1700000x1_S1700000_n_0_0_1 = Cert.ReferenceIdeal.scatter_S100000_S1700000x1_S1700000_n_0_0_1 := rfl

set_option maxHeartbeats 400000 in
/-- The count of arriving edges: ones added up at the destination numbers, into zeros. -/
theorem W1_v10 : W1 m ρ c (Proc.devRef .tc main_v10) = val_main_v10 (F := Ideal) (m ((c : Thread nD τ).loc main_arg1)) := by
  show after hostOps0 (W0 m ρ c) (Proc.devRef .tc main_v10) = _
  dsimp only [hostOps0]
  after_results
  rw [scatterVec_eq]
  unfold val_main_v10
  refine congrArg₂ (Host.scatterAdd Cert.ReferenceIdeal.scatter_S100000_S1700000x1_S1700000_n_0_0_1 _) ?_ ?_
  · rfl
  · rfl

set_option maxHeartbeats 400000 in
/-- Which nodes have a positive count. -/
theorem W1_v12 : W1 m ρ c (Proc.devRef .tc main_v12) = val_main_v12 (F := Ideal) (m ((c : Thread nD τ).loc main_arg1)) := by
  show after hostOps0 (W0 m ρ c) (Proc.devRef .tc main_v12) = _
  dsimp only [hostOps0]
  after_results
  rw [scatterVec_eq]
  unfold val_main_v12 val_main_v10
  refine congrArg₂ (cmpf (F := Ideal) (s := S100000) (φ := .f32) .ogt)
    (congrArg₂ (Host.scatterAdd Cert.ReferenceIdeal.scatter_S100000_S1700000x1_S1700000_n_0_0_1 _) ?_ ?_) ?_
  · rfl
  · rfl
  · rfl

set_option maxHeartbeats 400000 in
/-- The inverse square root of the count. -/
theorem W1_v13 : W1 m ρ c (Proc.devRef .tc main_v13) = val_main_v13 (F := Ideal) (m ((c : Thread nD τ).loc main_arg1)) := by
  show after hostOps0 (W0 m ρ c) (Proc.devRef .tc main_v13) = _
  dsimp only [hostOps0]
  after_results
  rw [scatterVec_eq]
  unfold val_main_v13 val_main_v10
  refine congrArg (Host.rsqrt (F := Ideal) (s := S100000) (φ := .f32))
    (congrArg₂ (Host.scatterAdd Cert.ReferenceIdeal.scatter_S100000_S1700000x1_S1700000_n_0_0_1 _) ?_ ?_)
  · rfl
  · rfl

/-- The zero that replaces the factor of a node no edge arrives at. -/
theorem W1_cst_2 : W1 m ρ c (Proc.devRef .tc main_cst_2) = val_main_cst_2 (F := Ideal) := by
  show after hostOps0 (W0 m ρ c) (Proc.devRef .tc main_cst_2) = _
  dsimp only [hostOps0]
  after_results
  rfl

/-- The choice, from whatever arrays it finds: the inverse square root where the count is positive, zero elsewhere. -/
theorem where_v14 (w : Valuation τ sig (Elt Ideal)) :
    (after hostOps0_1 w (Proc.devRef .tc main_v14) : (⟨S100000, .f32⟩ : BufTy).Contents (Elt Ideal))
      = select (w (Proc.devRef .tc main_v12) : (⟨S100000, .i1⟩ : BufTy).Contents (Elt Ideal))
          (w (Proc.devRef .tc main_v13) : (⟨S100000, .f32⟩ : BufTy).Contents (Elt Ideal))
          (broadcastInDim S100000 ![] bcast_S_S100000
            (w (Proc.devRef .tc main_cst_2) : (⟨S_, .f32⟩ : BufTy).Contents (Elt Ideal))) := by
  dsimp only [hostOps0_1]
  after_results
  rfl

/-- The per-node factor, as a vector. -/
theorem W2_v14 : W2 m ρ c (Proc.devRef .tc main_v14) = val_main_v14 (F := Ideal) (m ((c : Thread nD τ).loc main_arg1)) := by
  refine (where_v14 (W1 m ρ c)).trans ?_
  rw [W1_v12 m ρ c, W1_v13 m ρ c, W1_cst_2 m ρ c]
  unfold val_main_v14 val_main_call0_v1 val_main_call0_v0
  rfl

/-- The column, from whatever vector it finds. -/
theorem column_v15 (w : Valuation τ sig (Elt Ideal)) :
    (after hostOps0_2 w (Proc.devRef .tc main_v15) : (⟨S100000x1, .f32⟩ : BufTy).Contents (Elt Ideal))
      = shapeCast S100000x1 (w (Proc.devRef .tc main_v14) : (⟨S100000, .f32⟩ : BufTy).Contents (Elt Ideal))
          shapeCasts_S100000_S100000x1 := by
  dsimp only [hostOps0_2]
  after_results
  rfl

/-- The per-node factor, as a column. -/
theorem W3_v15 : W3 m ρ c (Proc.devRef .tc main_v15)
    = shapeCast S100000x1 (val_main_v14 (F := Ideal) (m ((c : Thread nD τ).loc main_arg1))) shapeCasts_S100000_S100000x1 :=
  (column_v15 (W2 m ρ c)).trans
    (congrArg (fun v : (⟨S100000, .f32⟩ : BufTy).Contents (Elt Ideal) => shapeCast S100000x1 v shapeCasts_S100000_S100000x1)
      (W2_v14 m ρ c))

end Cert.KernelIdeal.HostValue

end
-- ==== Proof.KernelDots.lean ====
/-
  The two contraction records of the kernel's matrix products, [5000, 128]·[128, 128] and [5000, 128]·[128, 64]: each
  contracts the left operand's columns with the right operand's rows, over one index of extent 128, and keeps the left rows
  and the right columns in place. These are the six facts the plain-contraction lemmas take.
-/
import proofs.«128727_j64132451664423_2_alg».proof.Proof.Gen.KernelIdeal

namespace Cert.KernelIdeal.Dots

open Cert.KernelIdeal Cert.KernelIdeal.Gen Idealize.ShloMosaic

/-! ## [5000, 128] · [128, 128] -/

theorem wide_lhs0 (j : S5000x128.Idx) (k : dot_S5000x128_S128x128_S5000x128_1_0_0_1_n_n.contr.Idx) :
    (dot_S5000x128_S128x128_S5000x128_1_0_0_1_n_n.lhsIdx j k (0 : Fin 2)).val = (j (0 : Fin 2)).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

theorem wide_rhs1 (j : S5000x128.Idx) (k : dot_S5000x128_S128x128_S5000x128_1_0_0_1_n_n.contr.Idx) :
    (dot_S5000x128_S128x128_S5000x128_1_0_0_1_n_n.rhsIdx j k (1 : Fin 2)).val = (j (1 : Fin 2)).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-! ## [5000, 128] · [128, 64] -/

theorem narrow_lhs0 (j : S5000x64.Idx) (k : dot_S5000x128_S128x64_S5000x64_1_0_0_1_n_n.contr.Idx) :
    (dot_S5000x128_S128x64_S5000x64_1_0_0_1_n_n.lhsIdx j k (0 : Fin 2)).val = (j (0 : Fin 2)).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl

theorem narrow_rhs1 (j : S5000x64.Idx) (k : dot_S5000x128_S128x64_S5000x64_1_0_0_1_n_n.contr.Idx) :
    (dot_S5000x128_S128x64_S5000x64_1_0_0_1_n_n.rhsIdx j k (1 : Fin 2)).val = (j (1 : Fin 2)).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

end Cert.KernelIdeal.Dots
-- ==== Proof.LibRowLift.lean ====
/-
  A row index lifted back along the columns: for a reduction of `[M, N]` along its columns to `[M]`, the source index over
  row `r` with column coordinate `k` is `(r, k)`.
-/
import Idealize.ShloMosaic.Lib.ValueIdx
import Idealize.ShloMosaic.PureOps.Ideal.Laws

namespace Cert.RowLift

open Idealize.ShloMosaic Idealize.ShloMosaic.ValueIdx

/-- The source index over row `r` whose coordinate on the reduced column axis is `k` is `(r, k)`. -/
theorem lift_row {M N : ℕ} (h : (⟨2, ![M, N]⟩ : Shape).Reduces [(1 : Fin 2)] ⟨1, ![M]⟩) (r : Fin M) (k : Fin N) :
    h.lift (ix1 r) k = ix2 r k := by
  funext c
  apply Fin.ext
  match c with
  | ⟨0, _⟩ => rfl
  | ⟨1, _⟩ => rfl

end Cert.RowLift
-- ==== Proof.LibUnitRows.lean ====
/-
  A block of rows rescaled by a column, each row brought to unit length and cut at zero, and sent through a dense layer — in
  the spelling of a program that works on blocks of rows — read at a row and a feature, on extended reals, general in the
  sizes.

  The column `s` (one entry per row, kept as `[M, 1]`) is laid over the columns and multiplied in (`scaled`); the squares of a
  row are summed along the columns, the sum laid back out as a column, its square root taken and floored by a small constant,
  the row divided by it and its positive part kept (`unitRows`: row by row this is `Cert.Gcn.unit`); the dense layer is a matrix
  product into a zero accumulator of the two operands narrowed to a shorter float format (the identity on extended reals) plus
  a bias row `[1, N]` laid down the rows (`dense`: row by row this is `Cert.DenseLayer.lin`); and the result may again be
  multiplied by the column (`colScale_apply`).
-/
import proofs.«128727_j64132451664423_2_alg».proof.Proof.Spec
import proofs.«128727_j64132451664423_2_alg».proof.Proof.LibDenseLayer
import proofs.«128727_j64132451664423_2_alg».proof.Proof.LibColumnLayout
import proofs.«128727_j64132451664423_2_alg».proof.Proof.LibRowLift

noncomputable section

namespace Cert.UnitRows

open Idealize.ShloMosaic Idealize.ShloMosaic.ValueIdx Cert.DenseRows Cert.DenseLayer Cert.Gcn Cert.ColumnLayout Cert.RowLift
open scoped BigOperators

/-! ## A block times a column -/

/-- A block `[M, N]` times a column `[M, 1]` laid over its columns: at `(p, q)` the block's entry times the column's entry of row `p`. -/
theorem colScale_apply {M N : ℕ} (y : FVec Ideal ⟨2, ![M, N]⟩ .f32) (s : FVec Ideal ⟨2, ![M, 1]⟩ .f32)
    (hcs : (⟨2, ![M, 1]⟩ : Shape).ShapeCasts ⟨2, ![M, 1]⟩) (hb : (⟨2, ![M, 1]⟩ : Shape).Broadcasts ⟨2, ![M, N]⟩)
    (p : Fin M) (q : Fin N) :
    mulf y (broadcastTo ⟨2, ![M, N]⟩ (shapeCast ⟨2, ![M, 1]⟩ s hcs) hb) (ix2 p q) = y (ix2 p q) * s (ix2 p (0 : Fin 1)) := by
  show y (ix2 p q) * broadcastTo ⟨2, ![M, N]⟩ (shapeCast ⟨2, ![M, 1]⟩ s hcs) hb (ix2 p q) = _
  rw [broadcastTo_a1_ab_apply, shapeCast_self]

/-- The block `x` (under an identity shape cast) times the column `s`. -/
def scaled {M N : ℕ} (x : FVec Ideal ⟨2, ![M, N]⟩ .f32) (s : FVec Ideal ⟨2, ![M, 1]⟩ .f32)
    (hcx : (⟨2, ![M, N]⟩ : Shape).ShapeCasts ⟨2, ![M, N]⟩) (hcs : (⟨2, ![M, 1]⟩ : Shape).ShapeCasts ⟨2, ![M, 1]⟩)
    (hb : (⟨2, ![M, 1]⟩ : Shape).Broadcasts ⟨2, ![M, N]⟩) : FVec Ideal ⟨2, ![M, N]⟩ .f32 :=
  mulf (shapeCast ⟨2, ![M, N]⟩ x hcx) (broadcastTo ⟨2, ![M, N]⟩ (shapeCast ⟨2, ![M, 1]⟩ s hcs) hb)

theorem scaled_apply {M N : ℕ} (x : FVec Ideal ⟨2, ![M, N]⟩ .f32) (s : FVec Ideal ⟨2, ![M, 1]⟩ .f32)
    (hcx : (⟨2, ![M, N]⟩ : Shape).ShapeCasts ⟨2, ![M, N]⟩) (hcs : (⟨2, ![M, 1]⟩ : Shape).ShapeCasts ⟨2, ![M, 1]⟩)
    (hb : (⟨2, ![M, 1]⟩ : Shape).Broadcasts ⟨2, ![M, N]⟩) (p : Fin M) (q : Fin N) :
    scaled x s hcx hcs hb (ix2 p q) = x (ix2 p q) * s (ix2 p (0 : Fin 1)) := by
  unfold scaled
  rw [colScale_apply, shapeCast_self]

/-! ## Every row over its length, cut at zero -/

/-- Every row of the block `a` over the larger of its Euclidean length and the small constant, then its positive part. -/
def unitRows {M N : ℕ} (a : FVec Ideal ⟨2, ![M, N]⟩ .f32) (hred : (⟨2, ![M, N]⟩ : Shape).Reduces [(1 : Fin 2)] ⟨1, ![M]⟩)
    (hφ : FKind.Formats .f32) (hacc : (0x00000000#32 : BitVec 32) = FKind.add.neutral .f32 hφ)
    (hsc : (⟨1, ![M]⟩ : Shape).ShapeCasts ⟨2, ![M, 1]⟩) (hb : (⟨2, ![M, 1]⟩ : Shape).Broadcasts ⟨2, ![M, N]⟩) :
    FVec Ideal ⟨2, ![M, N]⟩ .f32 :=
  maximumf
    (divf a
      (broadcastTo ⟨2, ![M, N]⟩
        (maximumf
          (sqrt (shapeCast ⟨2, ![M, 1]⟩ (multiReduction .add [(1 : Fin 2)] ⟨1, ![M]⟩ (mulf a a) 0x00000000#32 hred hφ hacc) hsc))
          (broadcast ⟨2, ![M, 1]⟩ (Scalar.ofBits (F := Ideal) .f32 0x2B8CBCCC#32)))
        hb))
    (broadcast ⟨2, ![M, N]⟩ (Scalar.ofBits (F := Ideal) .f32 0x00000000#32))

/-- At `(r, k)` it is `unit` of row `r` at `k`. -/
theorem unitRows_apply {M N : ℕ} (a : FVec Ideal ⟨2, ![M, N]⟩ .f32) (hred : (⟨2, ![M, N]⟩ : Shape).Reduces [(1 : Fin 2)] ⟨1, ![M]⟩)
    (hφ : FKind.Formats .f32) (hacc : (0x00000000#32 : BitVec 32) = FKind.add.neutral .f32 hφ)
    (hsc : (⟨1, ![M]⟩ : Shape).ShapeCasts ⟨2, ![M, 1]⟩) (hb : (⟨2, ![M, 1]⟩ : Shape).Broadcasts ⟨2, ![M, N]⟩)
    (r : Fin M) (k : Fin N) :
    unitRows a hred hφ hacc hsc hb (ix2 r k) = unit (fun j => a (ix2 r j)) k := by
  unfold unitRows
  show max (Ideal.div (a (ix2 r k))
      (broadcastTo ⟨2, ![M, N]⟩
        (maximumf
          (sqrt (shapeCast ⟨2, ![M, 1]⟩ (multiReduction .add [(1 : Fin 2)] ⟨1, ![M]⟩ (mulf a a) 0x00000000#32 hred hφ hacc) hsc))
          (broadcast ⟨2, ![M, 1]⟩ (Scalar.ofBits (F := Ideal) .f32 0x2B8CBCCC#32)))
        hb (ix2 r k))) (Ideal.ofBits .f32 0x00000000#32) = _
  rw [broadcastTo_a1_ab_apply]
  show max (Ideal.div (a (ix2 r k))
      (max (Ideal.sqrt (shapeCast ⟨2, ![M, 1]⟩ (multiReduction .add [(1 : Fin 2)] ⟨1, ![M]⟩ (mulf a a) 0x00000000#32 hred hφ hacc) hsc
          (ix2 r (0 : Fin 1))))
        (Ideal.ofBits .f32 0x2B8CBCCC#32))) (Ideal.ofBits .f32 0x00000000#32) = _
  rw [shapeCast_a_a1_apply, laneSum_apply (mulf a a) hred hφ hacc (fun r k => lift_row hred r k)]
  rfl

/-! ## The dense layer of a block -/

/-- The dense layer of the block `h`: the matrix product with the table `w` into a zero accumulator plus the bias row `b`. -/
def dense {M K N : ℕ} (D : DotDims ⟨2, ![M, K]⟩ ⟨2, ![K, N]⟩ ⟨2, ![M, N]⟩) (h : FVec Ideal ⟨2, ![M, K]⟩ .f32)
    (w : FVec Ideal ⟨2, ![K, N]⟩ .f32) (b : FVec Ideal ⟨2, ![1, N]⟩ .f32) (ht : FTy.bf16.bits < FTy.f32.bits)
    (hcb : (⟨2, ![1, N]⟩ : Shape).ShapeCasts ⟨2, ![1, N]⟩) (hb : (⟨2, ![1, N]⟩ : Shape).Broadcasts ⟨2, ![M, N]⟩) :
    FVec Ideal ⟨2, ![M, N]⟩ .f32 :=
  addf (matmul D none (truncf .bf16 h ht) (truncf .bf16 w ht) (constant (F := Ideal) ⟨2, ![M, N]⟩ .f32 0x00000000#32))
    (broadcastTo ⟨2, ![M, N]⟩ (shapeCast ⟨2, ![1, N]⟩ b hcb) hb)

/-- At `(p, q)` it is `lin` of row `p` at `q`. -/
theorem dense_apply {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (h : FVec Ideal ⟨2, ![M, K]⟩ .f32) (w : FVec Ideal ⟨2, ![K, N]⟩ .f32) (b : FVec Ideal ⟨2, ![1, N]⟩ .f32)
    (ht : FTy.bf16.bits < FTy.f32.bits) (hcb : (⟨2, ![1, N]⟩ : Shape).ShapeCasts ⟨2, ![1, N]⟩)
    (hb : (⟨2, ![1, N]⟩ : Shape).Broadcasts ⟨2, ![M, N]⟩) (p : Fin M) (q : Fin N) :
    dense D h w b ht hcb hb (ix2 p q)
      = lin (fun k => h (ix2 p k)) (fun k j => w (ix2 k j)) (fun j => b (ix2 (0 : Fin 1) j)) q := by
  unfold dense
  show matmul D none (truncf .bf16 h ht) (truncf .bf16 w ht) (constant (F := Ideal) ⟨2, ![M, N]⟩ .f32 0x00000000#32) (ix2 p q)
      + broadcastTo ⟨2, ![M, N]⟩ (shapeCast ⟨2, ![1, N]⟩ b hcb) hb (ix2 p q) = _
  rw [matmul_zero_plain_apply D hl hr hrank hsize hl0 hr1, broadcastTo_1b_ab_apply, shapeCast_self]
  rfl

/-- A dense layer's value at one output feature depends on the input row through its entries, on the table through that feature's
    column and on the bias through that feature's entry. -/
theorem lin_congr_all {K N : ℕ} {h h' : Fin K → EReal} {w w' : Fin K → Fin N → EReal} {b b' : Fin N → EReal} (j : Fin N)
    (eh : ∀ k, h k = h' k) (ew : ∀ k, w k j = w' k j) (eb : b j = b' j) : lin h w b j = lin h' w' b' j := by
  unfold lin
  rw [eb]
  exact congrArg (· + b' j) (Finset.sum_congr rfl fun k _ => by rw [eh k, ew k])

/-- The dense layer of the unit rows of a block rescaled by a column, at `(p, q)`. -/
theorem dense_unit_scaled_apply {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (x : FVec Ideal ⟨2, ![M, K]⟩ .f32) (s : FVec Ideal ⟨2, ![M, 1]⟩ .f32)
    (w : FVec Ideal ⟨2, ![K, N]⟩ .f32) (b : FVec Ideal ⟨2, ![1, N]⟩ .f32)
    (hcx : (⟨2, ![M, K]⟩ : Shape).ShapeCasts ⟨2, ![M, K]⟩) (hcs : (⟨2, ![M, 1]⟩ : Shape).ShapeCasts ⟨2, ![M, 1]⟩)
    (hbs : (⟨2, ![M, 1]⟩ : Shape).Broadcasts ⟨2, ![M, K]⟩)
    (hred : (⟨2, ![M, K]⟩ : Shape).Reduces [(1 : Fin 2)] ⟨1, ![M]⟩)
    (hφ : FKind.Formats .f32) (hacc : (0x00000000#32 : BitVec 32) = FKind.add.neutral .f32 hφ)
    (hsc : (⟨1, ![M]⟩ : Shape).ShapeCasts ⟨2, ![M, 1]⟩)
    (ht : FTy.bf16.bits < FTy.f32.bits) (hcb : (⟨2, ![1, N]⟩ : Shape).ShapeCasts ⟨2, ![1, N]⟩)
    (hb : (⟨2, ![1, N]⟩ : Shape).Broadcasts ⟨2, ![M, N]⟩) (p : Fin M) (q : Fin N) :
    dense D (unitRows (scaled x s hcx hcs hbs) hred hφ hacc hsc hbs) w b ht hcb hb (ix2 p q)
      = lin (unit (fun k => x (ix2 p k) * s (ix2 p (0 : Fin 1)))) (fun k j => w (ix2 k j)) (fun j => b (ix2 (0 : Fin 1) j)) q :=
  (dense_apply D hl hr hrank hsize hl0 hr1 _ w b ht hcb hb p q).trans
    (lin_congr _ _ q fun k =>
      (unitRows_apply _ hred hφ hacc hsc hbs p k).trans (unit_congr k fun j => scaled_apply x s hcx hcs hbs p j))

end Cert.UnitRows

end
-- ==== Proof.RegionPay.lean ====
/-
  What each of the kernel's three bodies stores, read at a row `r` of the block and an output feature `q`, on extended reals.

  The first body stores the dense layer of the block's rows times the rows' scale; the second rescales the rows, brings each to
  unit length and cuts it at zero, applies the dense layer and multiplies by the scale again; the third does the same without
  the last multiplication, into 64 features. Each is an instance of the general block lemmas (`Cert.UnitRows`) at the
  block's sizes, the two contraction records' index facts supplied.
-/
import proofs.«128727_j64132451664423_2_alg».proof.Proof.Gen.KernelIdeal.Skeleton
import proofs.«128727_j64132451664423_2_alg».proof.Proof.KernelDots
import proofs.«128727_j64132451664423_2_alg».proof.Proof.LibUnitRows

noncomputable section

namespace Cert.KernelIdeal.RegionValue

open Cert.KernelIdeal Cert.KernelIdeal.Gen Cert.KernelIdeal.Dots Idealize.ShloMosaic Idealize.ShloMosaic.ValueIdx
open Cert.DenseLayer Cert.Gcn Cert.UnitRows

/-- Region 0's stored block at a row and a feature: the dense layer of the row, times the row's scale. -/
theorem k0_pay1_apply (x0 : Vec Ideal S5000x128 .f32) (x1 : Vec Ideal S128x128 .f32) (x2 : Vec Ideal S1x128 .f32)
    (x3 : Vec Ideal S5000x1 .f32) (r : Fin 5000) (q : Fin 128) :
    k0_pay1 x0 x1 x2 x3 (ix2 r q)
      = lin (fun k => x0 (ix2 r k)) (fun k j => x1 (ix2 k j)) (fun j => x2 (ix2 (0 : Fin 1) j)) q * x3 (ix2 r (0 : Fin 1)) := by
  unfold k0_pay1
  refine (colScale_apply (dense dot_S5000x128_S128x128_S5000x128_1_0_0_1_n_n x0 x1 x2 bitsLt_bf16_f32 shapeCasts_S1x128_S1x128
    broadcasts_S1x128_S5000x128) x3 shapeCasts_S5000x1_S5000x1 broadcasts_S5000x1_S5000x128 r q).trans ?_
  exact congrArg (· * x3 (ix2 r (0 : Fin 1)))
    (dense_apply dot_S5000x128_S128x128_S5000x128_1_0_0_1_n_n rfl rfl rfl rfl wide_lhs0 wide_rhs1 x0 x1 x2 _ _ _ r q)

/-- Region 1's stored block at a row and a feature. -/
theorem k1_pay1_apply (v0 : Vec Ideal S5000x128 .f32) (v2 : Vec Ideal S5000x1 .f32) (v17 : Vec Ideal S128x128 .f32)
    (v20 : Vec Ideal S1x128 .f32) (v24 : Vec Ideal S5000x1 .f32) (r : Fin 5000) (q : Fin 128) :
    k1_pay1 v0 v2 v17 v20 v24 (ix2 r q)
      = lin (unit (fun k => v0 (ix2 r k) * v2 (ix2 r (0 : Fin 1)))) (fun k j => v17 (ix2 k j)) (fun j => v20 (ix2 (0 : Fin 1) j)) q
        * v24 (ix2 r (0 : Fin 1)) := by
  unfold k1_pay1
  refine (colScale_apply (dense dot_S5000x128_S128x128_S5000x128_1_0_0_1_n_n
    (unitRows (scaled v0 v2 shapeCasts_S5000x128_S5000x128 shapeCasts_S5000x1_S5000x1 broadcasts_S5000x1_S5000x128)
      reduces_S5000x128_S5000 (.inl rfl) rfl shapeCasts_S5000_S5000x1 broadcasts_S5000x1_S5000x128)
    v17 v20 bitsLt_bf16_f32 shapeCasts_S1x128_S1x128 broadcasts_S1x128_S5000x128) v24 shapeCasts_S5000x1_S5000x1
    broadcasts_S5000x1_S5000x128 r q).trans ?_
  exact congrArg (· * v24 (ix2 r (0 : Fin 1)))
    (dense_unit_scaled_apply dot_S5000x128_S128x128_S5000x128_1_0_0_1_n_n rfl rfl rfl rfl wide_lhs0 wide_rhs1 v0 v2 v17 v20
      _ _ _ _ _ _ _ _ _ _ r q)

/-- Region 2's stored block at a row and a feature. -/
theorem k2_pay1_apply (v0 : Vec Ideal S5000x128 .f32) (v2 : Vec Ideal S5000x1 .f32) (v17 : Vec Ideal S128x64 .f32)
    (v20 : Vec Ideal S1x64 .f32) (r : Fin 5000) (q : Fin 64) :
    k2_pay1 v0 v2 v17 v20 (ix2 r q)
      = lin (unit (fun k => v0 (ix2 r k) * v2 (ix2 r (0 : Fin 1)))) (fun k j => v17 (ix2 k j)) (fun j => v20 (ix2 (0 : Fin 1) j)) q := by
  unfold k2_pay1
  exact dense_unit_scaled_apply dot_S5000x128_S128x64_S5000x64_1_0_0_1_n_n rfl rfl rfl rfl narrow_lhs0 narrow_rhs1 v0 v2 v17 v20
    shapeCasts_S5000x128_S5000x128 shapeCasts_S5000x1_S5000x1 broadcasts_S5000x1_S5000x128 reduces_S5000x128_S5000 (.inl rfl) rfl
    shapeCasts_S5000_S5000x1 bitsLt_bf16_f32 shapeCasts_S1x64_S1x64 broadcasts_S1x64_S5000x64 r q

end Cert.KernelIdeal.RegionValue

end
-- ==== Proof.Region0.lean ====
/-
  The kernel's first region as ONE function of the arrays it finds: the dense layer of a block of 5000 rows, times the rows' scale,
  over a grid of 20 blocks that tile the 100000 rows.

  `rows` is the function row by row; `whole` the array it fills. Each input window's block at grid point `t` is read off its
  array (rows `5000 t … 5000 t + 4999` for the row-blocked windows, the whole array for the weight table and the bias row); what
  point `t` writes back is block `t` of `whole` (`written_eq`); the 20 blocks cover every row (`cover`: row `p` is in block
  `p / 5000`); so the output array ends holding `whole` (`final`), which `region0_apply` reads at a row and a feature.
-/
import proofs.«128727_j64132451664423_2_alg».proof.Proof.Gen.KernelIdeal.Frame
import proofs.«128727_j64132451664423_2_alg».proof.Proof.RegionPay
import Idealize.ShloMosaic.Lib.Pipeline.Value

noncomputable section

namespace Cert.KernelIdeal.RegionValue.R0

open Cert.KernelIdeal Cert.KernelIdeal.Gen Idealize.ShloMosaic Idealize.ShloMosaic.TcCoe Idealize.SL.Sem
open Idealize.ShloMosaic.ValueIdx Cert.DenseLayer Cert.Gcn Cert.UnitRows
open Idealize.ShloMosaic.Pipeline (Dat)

variable (V : (c : Dev nD) → (b : Ref sig .tc) → Buf (Elt Ideal) ((c : Thread nD τ).loc b))

/-! ## The region's function -/

/-- The dense layer of row `p` of `x` at output feature `q`, times the row's scale. -/
def rows (x : S100000x128.Idx → EReal) (w : S128x128.Idx → EReal) (b : S1x128.Idx → EReal) (s : S100000x1.Idx → EReal)
    (p : Fin 100000) (q : Fin 128) : EReal :=
  lin (fun k => x (ix2 p k)) (fun k j => w (ix2 k j)) (fun j => b (ix2 (0 : Fin 1) j)) q * s (ix2 p (0 : Fin 1))

/-- The array the region fills. -/
def whole (x : S100000x128.Idx → EReal) (w : S128x128.Idx → EReal) (b : S1x128.Idx → EReal) (s : S100000x1.Idx → EReal) :
    S100000x128.Idx → EReal := fun i => rows x w b s (i 0) (i 1)

/-! ## The windows' blocks -/

theorem zero_offsets : (![0, 0] : Fin 2 → Nat) = fun _ => 0 := funext fun a => by fin_cases a <;> rfl

/-- The index maps over the grid: the row-blocked windows sit at block `t` along the rows, every window at block 0 along the
    columns, the weight table and the bias row at block 0. -/
theorem grid_index0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0
    ∧ win0_4.index t (0 : Fin 2) = t.val
    ∧ win0_4.index t (1 : Fin 2) = 0 :=
  (by decide +kernel : ∀ t : Fin grid0.N, _)

/-- The row of the array that row `r` of block `t` is. -/
def row (t : Fin cfg0.N) (r : Fin 5000) : Fin 100000 :=
  ⟨t.val * 5000 + r.val, by have hN : cfg0.N = 20 := N_0; have := t.isLt; have := r.isLt; omega⟩

/-- Row `r` of the block of window 0 at point `t` is row `row t r` of its array. -/
theorem blk_x (c : Dev nD) (t : Fin cfg0.N) (r : Fin 5000) (k : Fin 128) :
    (iblk0 V c 0 t : Vec Ideal S5000x128 .f32) (ix2 r k) = (V c main_arg0 : S100000x128.Idx → EReal) (ix2 (row t r) k) := by
  obtain ⟨e0, e1, -⟩ := grid_index0 t
  unfold iblk0
  rw [View.read_apply]
  show V c main_arg0 _ = V c main_arg0 _
  congr 1
  funext a
  apply Fin.ext
  match a with
  | ⟨0, _⟩ => show win0_0.index t (0 : Fin 2) * 5000 + 1 * r.val = t.val * 5000 + r.val; rw [e0]; omega
  | ⟨1, _⟩ => show win0_0.index t (1 : Fin 2) * 128 + 1 * k.val = k.val; rw [e1]; omega

/-- The weight table's block at every point is the table. -/
theorem blk_w (c : Dev nD) (t : Fin cfg0.N) (k : Fin 128) (j : Fin 128) :
    (iblk0 V c 1 t : Vec Ideal S128x128 .f32) (ix2 k j) = (V c main_arg2 : S128x128.Idx → EReal) (ix2 k j) := by
  obtain ⟨-, -, e0, e1, -⟩ := grid_index0 t
  unfold iblk0
  rw [View.read_apply]
  show V c main_arg2 _ = V c main_arg2 _
  congr 1
  funext a
  apply Fin.ext
  match a with
  | ⟨0, _⟩ => show win0_1.index t (0 : Fin 2) * 128 + 1 * k.val = k.val; rw [e0]; omega
  | ⟨1, _⟩ => show win0_1.index t (1 : Fin 2) * 128 + 1 * j.val = j.val; rw [e1]; omega

/-- The bias row's block at every point is the bias row. -/
theorem blk_b (c : Dev nD) (t : Fin cfg0.N) (k : Fin 1) (j : Fin 128) :
    (iblk0 V c 2 t : Vec Ideal S1x128 .f32) (ix2 k j) = (V c main_v16 : S1x128.Idx → EReal) (ix2 k j) := by
  obtain ⟨-, -, -, -, e0, e1, -⟩ := grid_index0 t
  unfold iblk0
  rw [View.read_apply]
  show V c main_v16 _ = V c main_v16 _
  congr 1
  funext a
  apply Fin.ext
  match a with
  | ⟨0, _⟩ => show win0_2.index t (0 : Fin 2) * 1 + 1 * k.val = k.val; rw [e0]; omega
  | ⟨1, _⟩ => show win0_2.index t (1 : Fin 2) * 128 + 1 * j.val = j.val; rw [e1]; omega

/-- Entry `r` of the block of the scale column at point `t` is entry `row t r` of the column. -/
theorem blk_s (c : Dev nD) (t : Fin cfg0.N) (r : Fin 5000) :
    (iblk0 V c 3 t : Vec Ideal S5000x1 .f32) (ix2 r (0 : Fin 1)) = (V c main_v15 : S100000x1.Idx → EReal) (ix2 (row t r) (0 : Fin 1)) := by
  obtain ⟨-, -, -, -, -, -, e0, e1, -⟩ := grid_index0 t
  unfold iblk0
  rw [View.read_apply]
  show V c main_v15 _ = V c main_v15 _
  congr 1
  funext a
  apply Fin.ext
  match a with
  | ⟨0, _⟩ => show win0_3.index t (0 : Fin 2) * 5000 + 1 * r.val = t.val * 5000 + r.val; rw [e0]; omega
  | ⟨1, _⟩ => show win0_3.index t (1 : Fin 2) * 1 + 1 * 0 = 0; rw [e1]

/-- Element `(r, q)` of the output's block at point `t` sits at `(row t r, q)` of the output array. -/
theorem blk_out (t : Fin cfg0.N) (r : Fin 5000) (q : Fin 128) :
    ((cfg0.win 4).blk t).view.emb (ix2 r q : S5000x128.Idx) = (ix2 (row t r) q : S100000x128.Idx) := by
  obtain ⟨-, -, -, -, -, -, -, -, e0, e1⟩ := grid_index0 t
  funext a
  apply Fin.ext
  match a with
  | ⟨0, _⟩ => show win0_4.index t (0 : Fin 2) * 5000 + 1 * r.val = t.val * 5000 + r.val; rw [e0]; omega
  | ⟨1, _⟩ => show win0_4.index t (1 : Fin 2) * 128 + 1 * q.val = q.val; rw [e1]; omega

/-! ## What a point writes back -/

/-- The body's stored block at point `t`, element by element, is `whole` at the element's place in the array. -/
theorem stored_eq (c : Dev nD) (t : Fin cfg0.N) (j : S5000x128.Idx) :
    k0_pay1 (iblk0 V c 0 t) (iblk0 V c 1 t) (iblk0 V c 2 t) (iblk0 V c 3 t) j
      = whole (V c main_arg0) (V c main_arg2) (V c main_v16) (V c main_v15) (((cfg0.win 4).blk t).view.emb j) := by
  obtain ⟨r, q, rfl⟩ : ∃ (r : Fin 5000) (q : Fin 128), j = ix2 r q := ⟨j 0, j 1, eq_ix2 j⟩
  refine (k0_pay1_apply (iblk0 V c 0 t) (iblk0 V c 1 t) (iblk0 V c 2 t) (iblk0 V c 3 t) r q).trans ?_
  rw [blk_out t r q]
  show _ = rows (V c main_arg0) (V c main_arg2) (V c main_v16) (V c main_v15) (row t r) q
  unfold rows
  exact congrArg₂ (· * ·)
    (lin_congr_all q (fun k => blk_x V c t r k) (fun k => blk_w V c t k q) (blk_b V c t (0 : Fin 1) q)) (blk_s V c t r)

/-- What point `t` writes back is block `t` of `whole`. -/
theorem written_eq (c : Dev nD) (t : Fin cfg0.N) :
    (dat0 V c).flushed 4 t = ((cfg0.win 4).blk t).view.read (Elt Ideal) (whole (V c main_arg0) (V c main_arg2) (V c main_v16) (V c main_v15)) := by
  show (cfg0.win 4).cut (grid0.coords t) ((dat0 V c).after 4 t) = _
  rw [after0_4]
  unfold out0_4
  rw [View.canon_unit_zero zero_offsets]
  simp only [View.ld_unit_zero (S := S5000x128) zero_offsets,
    View.ld_unit_zero (S := S128x128) zero_offsets,
    View.ld_unit_zero (S := S1x128) zero_offsets,
    View.ld_unit_zero (S := S5000x1) zero_offsets]
  funext j
  exact stored_eq V c t j

/-! ## The blocks cover the array -/

/-- An index of the output array is in point `t`'s block iff each coordinate is in the block's range on its axis. -/
theorem mem_blk (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v17).slice (win0_4.rect t)).set ↔ _
  rw [View.set_slice_whole, Rect.mem_set_unit]
  exact Iff.rfl

/-- Row `p` is in the block of point `p / 5000`, which writes back. -/
theorem cover (i : S100000x128.Idx) : ∃ t : Fin cfg0.N, (cfg0.win 4).flush t = true ∧ i ∈ ((cfg0.win 4).blk t).view.set := by
  have hN : cfg0.N = 20 := N_0
  have hi0 : (i 0).val < 100000 := (i 0).isLt
  have hi1 : (i 1).val < 128 := (i 1).isLt
  refine ⟨⟨(i 0).val / 5000, by omega⟩, flush0_4 _, ?_⟩
  rw [mem_blk]
  obtain ⟨-, -, -, -, -, -, -, -, e0, e1⟩ := grid_index0 ⟨(i 0).val / 5000, by omega⟩
  intro a
  match a with
  | ⟨0, _⟩ =>
    show win0_4.index _ (0 : Fin 2) * 5000 ≤ (i 0).val ∧ (i 0).val < win0_4.index _ (0 : Fin 2) * 5000 + 5000
    rw [e0]
    show (i 0).val / 5000 * 5000 ≤ (i 0).val ∧ (i 0).val < (i 0).val / 5000 * 5000 + 5000
    omega
  | ⟨1, _⟩ =>
    show win0_4.index _ (1 : Fin 2) * 128 ≤ (i 1).val ∧ (i 1).val < win0_4.index _ (1 : Fin 2) * 128 + 128
    rw [e1]
    omega

/-- The output array after the region is `whole` of the arrays the region found. -/
theorem final (c : Dev nD) : (dat0 V c).arrAt 4 cfg0.N = whole (V c main_arg0) (V c main_arg2) (V c main_v16) (V c main_v15) :=
  (dat0 V c).arrAt_eq_of_cover 4 _ (fun t _ => written_eq V c t) cover

end Cert.KernelIdeal.RegionValue.R0

namespace Cert.KernelIdeal.RegionValue

open Cert.KernelIdeal Cert.KernelIdeal.Gen Idealize.ShloMosaic Idealize.ShloMosaic.TcCoe Idealize.SL.Sem
open Idealize.ShloMosaic.ValueIdx Cert.DenseLayer Cert.Gcn

/-- The first region's output array, for any contents `V` the region finds, at row `p` and feature `q`. -/
theorem region0_apply (V : (c : Dev nD) → (b : Ref sig .tc) → Buf (Elt Ideal) ((c : Thread nD τ).loc b)) (c : Dev nD)
    (p : Fin 100000) (q : Fin 128) :
    (dat0 (F := Ideal) V c).arrAt 4 cfg0.N (ix2 p q)
      = lin (fun k => (V c main_arg0 : S100000x128.Idx → EReal) (ix2 p k)) (fun k j => (V c main_arg2 : S128x128.Idx → EReal) (ix2 k j))
          (fun j => (V c main_v16 : S1x128.Idx → EReal) (ix2 (0 : Fin 1) j)) q * (V c main_v15 : S100000x1.Idx → EReal) (ix2 p (0 : Fin 1)) := by
  rw [R0.final V c]
  rfl

end Cert.KernelIdeal.RegionValue

end
-- ==== Proof.Region1.lean ====
/-
  The kernel's second region as ONE function of the arrays it finds: a block of 5000 rows rescaled, each row brought to unit length and cut at zero, through the dense layer, times the rows' scale,
  over a grid of 20 blocks that tile the 100000 rows.

  `rows` is the function row by row; `whole` the array it fills. Each input window's block at grid point `t` is read off its
  array (rows `5000 t … 5000 t + 4999` for the row-blocked windows, the whole array for the weight table and the bias row); what
  point `t` writes back is block `t` of `whole` (`written_eq`); the 20 blocks cover every row (`cover`: row `p` is in block
  `p / 5000`); so the output array ends holding `whole` (`final`), which `region1_apply` reads at a row and a feature.
-/
import proofs.«128727_j64132451664423_2_alg».proof.Proof.Gen.KernelIdeal.Frame
import proofs.«128727_j64132451664423_2_alg».proof.Proof.RegionPay
import Idealize.ShloMosaic.Lib.Pipeline.Value

noncomputable section

namespace Cert.KernelIdeal.RegionValue.R1

open Cert.KernelIdeal Cert.KernelIdeal.Gen Idealize.ShloMosaic Idealize.ShloMosaic.TcCoe Idealize.SL.Sem
open Idealize.ShloMosaic.ValueIdx Cert.DenseLayer Cert.Gcn Cert.UnitRows
open Idealize.ShloMosaic.Pipeline (Dat)

variable (V : (c : Dev nD) → (b : Ref sig .tc) → Buf (Elt Ideal) ((c : Thread nD τ).loc b))

/-! ## The region's function -/

/-- Row `p` of `a` rescaled, brought to unit length and cut at zero, through the dense layer at output feature `q`, times the row's scale. -/
def rows (a : S100000x128.Idx → EReal) (s : S100000x1.Idx → EReal) (w : S128x128.Idx → EReal) (b : S1x128.Idx → EReal)
    (p : Fin 100000) (q : Fin 128) : EReal :=
  lin (unit (fun k => a (ix2 p k) * s (ix2 p (0 : Fin 1)))) (fun k j => w (ix2 k j)) (fun j => b (ix2 (0 : Fin 1) j)) q * s (ix2 p (0 : Fin 1))

/-- The array the region fills. -/
def whole (a : S100000x128.Idx → EReal) (s : S100000x1.Idx → EReal) (w : S128x128.Idx → EReal) (b : S1x128.Idx → EReal) :
    S100000x128.Idx → EReal := fun i => rows a s w b (i 0) (i 1)

/-! ## The windows' blocks -/

theorem zero_offsets : (![0, 0] : Fin 2 → Nat) = fun _ => 0 := funext fun a => by fin_cases a <;> rfl

/-- The index maps over the grid: the row-blocked windows sit at block `t` along the rows, every window at block 0 along the
    columns, the weight table and the bias row at block 0. -/
theorem grid_index1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = t.val
    ∧ win1_4.index t (1 : Fin 2) = 0 :=
  (by decide +kernel : ∀ t : Fin grid1.N, _)

/-- The row of the array that row `r` of block `t` is. -/
def row (t : Fin cfg1.N) (r : Fin 5000) : Fin 100000 :=
  ⟨t.val * 5000 + r.val, by have hN : cfg1.N = 20 := N_1; have := t.isLt; have := r.isLt; omega⟩

/-- Row `r` of the block of window 0 at point `t` is row `row t r` of its array. -/
theorem blk_x (c : Dev nD) (t : Fin cfg1.N) (r : Fin 5000) (k : Fin 128) :
    (iblk1 V c 0 t : Vec Ideal S5000x128 .f32) (ix2 r k) = (V c main_v27 : S100000x128.Idx → EReal) (ix2 (row t r) k) := by
  obtain ⟨e0, e1, -⟩ := grid_index1 t
  unfold iblk1
  rw [View.read_apply]
  show V c main_v27 _ = V c main_v27 _
  congr 1
  funext a
  apply Fin.ext
  match a with
  | ⟨0, _⟩ => show win1_0.index t (0 : Fin 2) * 5000 + 1 * r.val = t.val * 5000 + r.val; rw [e0]; omega
  | ⟨1, _⟩ => show win1_0.index t (1 : Fin 2) * 128 + 1 * k.val = k.val; rw [e1]; omega

/-- Entry `r` of the block of the scale column at point `t` is entry `row t r` of the column. -/
theorem blk_s (c : Dev nD) (t : Fin cfg1.N) (r : Fin 5000) :
    (iblk1 V c 1 t : Vec Ideal S5000x1 .f32) (ix2 r (0 : Fin 1)) = (V c main_v15 : S100000x1.Idx → EReal) (ix2 (row t r) (0 : Fin 1)) := by
  obtain ⟨-, -, e0, e1, -⟩ := grid_index1 t
  unfold iblk1
  rw [View.read_apply]
  show V c main_v15 _ = V c main_v15 _
  congr 1
  funext a
  apply Fin.ext
  match a with
  | ⟨0, _⟩ => show win1_1.index t (0 : Fin 2) * 5000 + 1 * r.val = t.val * 5000 + r.val; rw [e0]; omega
  | ⟨1, _⟩ => show win1_1.index t (1 : Fin 2) * 1 + 1 * 0 = 0; rw [e1]

/-- The weight table's block at every point is the table. -/
theorem blk_w (c : Dev nD) (t : Fin cfg1.N) (k : Fin 128) (j : Fin 128) :
    (iblk1 V c 2 t : Vec Ideal S128x128 .f32) (ix2 k j) = (V c main_arg4 : S128x128.Idx → EReal) (ix2 k j) := by
  obtain ⟨-, -, -, -, e0, e1, -⟩ := grid_index1 t
  unfold iblk1
  rw [View.read_apply]
  show V c main_arg4 _ = V c main_arg4 _
  congr 1
  funext a
  apply Fin.ext
  match a with
  | ⟨0, _⟩ => show win1_2.index t (0 : Fin 2) * 128 + 1 * k.val = k.val; rw [e0]; omega
  | ⟨1, _⟩ => show win1_2.index t (1 : Fin 2) * 128 + 1 * j.val = j.val; rw [e1]; omega

/-- The bias row's block at every point is the bias row. -/
theorem blk_b (c : Dev nD) (t : Fin cfg1.N) (k : Fin 1) (j : Fin 128) :
    (iblk1 V c 3 t : Vec Ideal S1x128 .f32) (ix2 k j) = (V c main_v28 : S1x128.Idx → EReal) (ix2 k j) := by
  obtain ⟨-, -, -, -, -, -, e0, e1, -⟩ := grid_index1 t
  unfold iblk1
  rw [View.read_apply]
  show V c main_v28 _ = V c main_v28 _
  congr 1
  funext a
  apply Fin.ext
  match a with
  | ⟨0, _⟩ => show win1_3.index t (0 : Fin 2) * 1 + 1 * k.val = k.val; rw [e0]; omega
  | ⟨1, _⟩ => show win1_3.index t (1 : Fin 2) * 128 + 1 * j.val = j.val; rw [e1]; omega

/-- Element `(r, q)` of the output's block at point `t` sits at `(row t r, q)` of the output array. -/
theorem blk_out (t : Fin cfg1.N) (r : Fin 5000) (q : Fin 128) :
    ((cfg1.win 4).blk t).view.emb (ix2 r q : S5000x128.Idx) = (ix2 (row t r) q : S100000x128.Idx) := by
  obtain ⟨-, -, -, -, -, -, -, -, e0, e1⟩ := grid_index1 t
  funext a
  apply Fin.ext
  match a with
  | ⟨0, _⟩ => show win1_4.index t (0 : Fin 2) * 5000 + 1 * r.val = t.val * 5000 + r.val; rw [e0]; omega
  | ⟨1, _⟩ => show win1_4.index t (1 : Fin 2) * 128 + 1 * q.val = q.val; rw [e1]; omega

/-! ## What a point writes back -/

/-- The body's stored block at point `t`, element by element, is `whole` at the element's place in the array. -/
theorem stored_eq (c : Dev nD) (t : Fin cfg1.N) (j : S5000x128.Idx) :
    k1_pay1 (iblk1 V c 0 t) (iblk1 V c 1 t) (iblk1 V c 2 t) (iblk1 V c 3 t) (iblk1 V c 1 t) j
      = whole (V c main_v27) (V c main_v15) (V c main_arg4) (V c main_v28) (((cfg1.win 4).blk t).view.emb j) := by
  obtain ⟨r, q, rfl⟩ : ∃ (r : Fin 5000) (q : Fin 128), j = ix2 r q := ⟨j 0, j 1, eq_ix2 j⟩
  refine (k1_pay1_apply (iblk1 V c 0 t) (iblk1 V c 1 t) (iblk1 V c 2 t) (iblk1 V c 3 t) (iblk1 V c 1 t) r q).trans ?_
  rw [blk_out t r q]
  show _ = rows (V c main_v27) (V c main_v15) (V c main_arg4) (V c main_v28) (row t r) q
  unfold rows
  exact congrArg₂ (· * ·)
    (lin_congr_all q (fun k => unit_congr k fun j => congrArg₂ (· * ·) (blk_x V c t r j) (blk_s V c t r))
      (fun k => blk_w V c t k q) (blk_b V c t (0 : Fin 1) q)) (blk_s V c t r)

/-- What point `t` writes back is block `t` of `whole`. -/
theorem written_eq (c : Dev nD) (t : Fin cfg1.N) :
    (dat1 V c).flushed 4 t = ((cfg1.win 4).blk t).view.read (Elt Ideal) (whole (V c main_v27) (V c main_v15) (V c main_arg4) (V c main_v28)) := by
  show (cfg1.win 4).cut (grid1.coords t) ((dat1 V c).after 4 t) = _
  rw [after1_4]
  unfold out1_4
  rw [View.canon_unit_zero zero_offsets]
  simp only [View.ld_unit_zero (S := S5000x128) zero_offsets,
    View.ld_unit_zero (S := S5000x1) zero_offsets,
    View.ld_unit_zero (S := S128x128) zero_offsets,
    View.ld_unit_zero (S := S1x128) zero_offsets]
  funext j
  exact stored_eq V c t j

/-! ## The blocks cover the array -/

/-- An index of the output array is in point `t`'s block iff each coordinate is in the block's range on its axis. -/
theorem mem_blk (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v29).slice (win1_4.rect t)).set ↔ _
  rw [View.set_slice_whole, Rect.mem_set_unit]
  exact Iff.rfl

/-- Row `p` is in the block of point `p / 5000`, which writes back. -/
theorem cover (i : S100000x128.Idx) : ∃ t : Fin cfg1.N, (cfg1.win 4).flush t = true ∧ i ∈ ((cfg1.win 4).blk t).view.set := by
  have hN : cfg1.N = 20 := N_1
  have hi0 : (i 0).val < 100000 := (i 0).isLt
  have hi1 : (i 1).val < 128 := (i 1).isLt
  refine ⟨⟨(i 0).val / 5000, by omega⟩, flush1_4 _, ?_⟩
  rw [mem_blk]
  obtain ⟨-, -, -, -, -, -, -, -, e0, e1⟩ := grid_index1 ⟨(i 0).val / 5000, by omega⟩
  intro a
  match a with
  | ⟨0, _⟩ =>
    show win1_4.index _ (0 : Fin 2) * 5000 ≤ (i 0).val ∧ (i 0).val < win1_4.index _ (0 : Fin 2) * 5000 + 5000
    rw [e0]
    show (i 0).val / 5000 * 5000 ≤ (i 0).val ∧ (i 0).val < (i 0).val / 5000 * 5000 + 5000
    omega
  | ⟨1, _⟩ =>
    show win1_4.index _ (1 : Fin 2) * 128 ≤ (i 1).val ∧ (i 1).val < win1_4.index _ (1 : Fin 2) * 128 + 128
    rw [e1]
    omega

/-- The output array after the region is `whole` of the arrays the region found. -/
theorem final (c : Dev nD) : (dat1 V c).arrAt 4 cfg1.N = whole (V c main_v27) (V c main_v15) (V c main_arg4) (V c main_v28) :=
  (dat1 V c).arrAt_eq_of_cover 4 _ (fun t _ => written_eq V c t) cover

end Cert.KernelIdeal.RegionValue.R1

namespace Cert.KernelIdeal.RegionValue

open Cert.KernelIdeal Cert.KernelIdeal.Gen Idealize.ShloMosaic Idealize.ShloMosaic.TcCoe Idealize.SL.Sem
open Idealize.ShloMosaic.ValueIdx Cert.DenseLayer Cert.Gcn

/-- `rows` spelt out: the dense layer of the rescaled unit row, times the scale. -/
theorem R1.rows_eq (a : S100000x128.Idx → EReal) (s : S100000x1.Idx → EReal) (w : S128x128.Idx → EReal) (b : S1x128.Idx → EReal)
    (p : Fin 100000) (q : Fin 128) :
    R1.rows a s w b p q
      = lin (unit (fun k => a (ix2 p k) * s (ix2 p (0 : Fin 1)))) (fun k j => w (ix2 k j)) (fun j => b (ix2 (0 : Fin 1) j)) q * s (ix2 p (0 : Fin 1)) := rfl

/-- The second region's output array, for any contents `V` the region finds, at row `p` and feature `q`. -/
theorem region1_apply (V : (c : Dev nD) → (b : Ref sig .tc) → Buf (Elt Ideal) ((c : Thread nD τ).loc b)) (c : Dev nD)
    (p : Fin 100000) (q : Fin 128) :
    (dat1 (F := Ideal) V c).arrAt 4 cfg1.N (ix2 p q)
      = R1.rows (V c main_v27) (V c main_v15) (V c main_arg4) (V c main_v28) p q := by
  rw [R1.final V c]
  rfl

end Cert.KernelIdeal.RegionValue

end
-- ==== Proof.Region2.lean ====
/-
  The kernel's third region as ONE function of the arrays it finds: a block of 5000 rows rescaled, each row brought to unit length and cut at zero, through the dense layer into 64 features,
  over a grid of 20 blocks that tile the 100000 rows.

  `rows` is the function row by row; `whole` the array it fills. Each input window's block at grid point `t` is read off its
  array (rows `5000 t … 5000 t + 4999` for the row-blocked windows, the whole array for the weight table and the bias row); what
  point `t` writes back is block `t` of `whole` (`written_eq`); the 20 blocks cover every row (`cover`: row `p` is in block
  `p / 5000`); so the output array ends holding `whole` (`final`), which `region2_apply` reads at a row and a feature.
-/
import proofs.«128727_j64132451664423_2_alg».proof.Proof.Gen.KernelIdeal.Frame
import proofs.«128727_j64132451664423_2_alg».proof.Proof.RegionPay
import Idealize.ShloMosaic.Lib.Pipeline.Value

noncomputable section

namespace Cert.KernelIdeal.RegionValue.R2

open Cert.KernelIdeal Cert.KernelIdeal.Gen Idealize.ShloMosaic Idealize.ShloMosaic.TcCoe Idealize.SL.Sem
open Idealize.ShloMosaic.ValueIdx Cert.DenseLayer Cert.Gcn Cert.UnitRows
open Idealize.ShloMosaic.Pipeline (Dat)

variable (V : (c : Dev nD) → (b : Ref sig .tc) → Buf (Elt Ideal) ((c : Thread nD τ).loc b))

/-! ## The region's function -/

/-- Row `p` of `a` rescaled, brought to unit length and cut at zero, through the dense layer at output feature `q`. -/
def rows (a : S100000x128.Idx → EReal) (s : S100000x1.Idx → EReal) (w : S128x64.Idx → EReal) (b : S1x64.Idx → EReal)
    (p : Fin 100000) (q : Fin 64) : EReal :=
  lin (unit (fun k => a (ix2 p k) * s (ix2 p (0 : Fin 1)))) (fun k j => w (ix2 k j)) (fun j => b (ix2 (0 : Fin 1) j)) q

/-- The array the region fills. -/
def whole (a : S100000x128.Idx → EReal) (s : S100000x1.Idx → EReal) (w : S128x64.Idx → EReal) (b : S1x64.Idx → EReal) :
    S100000x64.Idx → EReal := fun i => rows a s w b (i 0) (i 1)

/-! ## The windows' blocks -/

theorem zero_offsets : (![0, 0] : Fin 2 → Nat) = fun _ => 0 := funext fun a => by fin_cases a <;> rfl

/-- The index maps over the grid: the row-blocked windows sit at block `t` along the rows, every window at block 0 along the
    columns, the weight table and the bias row at block 0. -/
theorem grid_index2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = t.val
    ∧ win2_4.index t (1 : Fin 2) = 0 :=
  (by decide +kernel : ∀ t : Fin grid2.N, _)

/-- The row of the array that row `r` of block `t` is. -/
def row (t : Fin cfg2.N) (r : Fin 5000) : Fin 100000 :=
  ⟨t.val * 5000 + r.val, by have hN : cfg2.N = 20 := N_2; have := t.isLt; have := r.isLt; omega⟩

/-- Row `r` of the block of window 0 at point `t` is row `row t r` of its array. -/
theorem blk_x (c : Dev nD) (t : Fin cfg2.N) (r : Fin 5000) (k : Fin 128) :
    (iblk2 V c 0 t : Vec Ideal S5000x128 .f32) (ix2 r k) = (V c main_v39 : S100000x128.Idx → EReal) (ix2 (row t r) k) := by
  obtain ⟨e0, e1, -⟩ := grid_index2 t
  unfold iblk2
  rw [View.read_apply]
  show V c main_v39 _ = V c main_v39 _
  congr 1
  funext a
  apply Fin.ext
  match a with
  | ⟨0, _⟩ => show win2_0.index t (0 : Fin 2) * 5000 + 1 * r.val = t.val * 5000 + r.val; rw [e0]; omega
  | ⟨1, _⟩ => show win2_0.index t (1 : Fin 2) * 128 + 1 * k.val = k.val; rw [e1]; omega

/-- Entry `r` of the block of the scale column at point `t` is entry `row t r` of the column. -/
theorem blk_s (c : Dev nD) (t : Fin cfg2.N) (r : Fin 5000) :
    (iblk2 V c 1 t : Vec Ideal S5000x1 .f32) (ix2 r (0 : Fin 1)) = (V c main_v15 : S100000x1.Idx → EReal) (ix2 (row t r) (0 : Fin 1)) := by
  obtain ⟨-, -, e0, e1, -⟩ := grid_index2 t
  unfold iblk2
  rw [View.read_apply]
  show V c main_v15 _ = V c main_v15 _
  congr 1
  funext a
  apply Fin.ext
  match a with
  | ⟨0, _⟩ => show win2_1.index t (0 : Fin 2) * 5000 + 1 * r.val = t.val * 5000 + r.val; rw [e0]; omega
  | ⟨1, _⟩ => show win2_1.index t (1 : Fin 2) * 1 + 1 * 0 = 0; rw [e1]

/-- The weight table's block at every point is the table. -/
theorem blk_w (c : Dev nD) (t : Fin cfg2.N) (k : Fin 128) (j : Fin 64) :
    (iblk2 V c 2 t : Vec Ideal S128x64 .f32) (ix2 k j) = (V c main_arg6 : S128x64.Idx → EReal) (ix2 k j) := by
  obtain ⟨-, -, -, -, e0, e1, -⟩ := grid_index2 t
  unfold iblk2
  rw [View.read_apply]
  show V c main_arg6 _ = V c main_arg6 _
  congr 1
  funext a
  apply Fin.ext
  match a with
  | ⟨0, _⟩ => show win2_2.index t (0 : Fin 2) * 128 + 1 * k.val = k.val; rw [e0]; omega
  | ⟨1, _⟩ => show win2_2.index t (1 : Fin 2) * 64 + 1 * j.val = j.val; rw [e1]; omega

/-- The bias row's block at every point is the bias row. -/
theorem blk_b (c : Dev nD) (t : Fin cfg2.N) (k : Fin 1) (j : Fin 64) :
    (iblk2 V c 3 t : Vec Ideal S1x64 .f32) (ix2 k j) = (V c main_v40 : S1x64.Idx → EReal) (ix2 k j) := by
  obtain ⟨-, -, -, -, -, -, e0, e1, -⟩ := grid_index2 t
  unfold iblk2
  rw [View.read_apply]
  show V c main_v40 _ = V c main_v40 _
  congr 1
  funext a
  apply Fin.ext
  match a with
  | ⟨0, _⟩ => show win2_3.index t (0 : Fin 2) * 1 + 1 * k.val = k.val; rw [e0]; omega
  | ⟨1, _⟩ => show win2_3.index t (1 : Fin 2) * 64 + 1 * j.val = j.val; rw [e1]; omega

/-- Element `(r, q)` of the output's block at point `t` sits at `(row t r, q)` of the output array. -/
theorem blk_out (t : Fin cfg2.N) (r : Fin 5000) (q : Fin 64) :
    ((cfg2.win 4).blk t).view.emb (ix2 r q : S5000x64.Idx) = (ix2 (row t r) q : S100000x64.Idx) := by
  obtain ⟨-, -, -, -, -, -, -, -, e0, e1⟩ := grid_index2 t
  funext a
  apply Fin.ext
  match a with
  | ⟨0, _⟩ => show win2_4.index t (0 : Fin 2) * 5000 + 1 * r.val = t.val * 5000 + r.val; rw [e0]; omega
  | ⟨1, _⟩ => show win2_4.index t (1 : Fin 2) * 64 + 1 * q.val = q.val; rw [e1]; omega

/-! ## What a point writes back -/

/-- The body's stored block at point `t`, element by element, is `whole` at the element's place in the array. -/
theorem stored_eq (c : Dev nD) (t : Fin cfg2.N) (j : S5000x64.Idx) :
    k2_pay1 (iblk2 V c 0 t) (iblk2 V c 1 t) (iblk2 V c 2 t) (iblk2 V c 3 t) j
      = whole (V c main_v39) (V c main_v15) (V c main_arg6) (V c main_v40) (((cfg2.win 4).blk t).view.emb j) := by
  obtain ⟨r, q, rfl⟩ : ∃ (r : Fin 5000) (q : Fin 64), j = ix2 r q := ⟨j 0, j 1, eq_ix2 j⟩
  refine (k2_pay1_apply (iblk2 V c 0 t) (iblk2 V c 1 t) (iblk2 V c 2 t) (iblk2 V c 3 t) r q).trans ?_
  rw [blk_out t r q]
  show _ = rows (V c main_v39) (V c main_v15) (V c main_arg6) (V c main_v40) (row t r) q
  unfold rows
  exact lin_congr_all q (fun k => unit_congr k fun j => congrArg₂ (· * ·) (blk_x V c t r j) (blk_s V c t r))
      (fun k => blk_w V c t k q) (blk_b V c t (0 : Fin 1) q)

/-- What point `t` writes back is block `t` of `whole`. -/
theorem written_eq (c : Dev nD) (t : Fin cfg2.N) :
    (dat2 V c).flushed 4 t = ((cfg2.win 4).blk t).view.read (Elt Ideal) (whole (V c main_v39) (V c main_v15) (V c main_arg6) (V c main_v40)) := by
  show (cfg2.win 4).cut (grid2.coords t) ((dat2 V c).after 4 t) = _
  rw [after2_4]
  unfold out2_4
  rw [View.canon_unit_zero zero_offsets]
  simp only [View.ld_unit_zero (S := S5000x128) zero_offsets,
    View.ld_unit_zero (S := S5000x1) zero_offsets,
    View.ld_unit_zero (S := S128x64) zero_offsets,
    View.ld_unit_zero (S := S1x64) zero_offsets,
    View.ld_unit_zero (S := S5000x64) zero_offsets]
  funext j
  exact stored_eq V c t j

/-! ## The blocks cover the array -/

/-- An index of the output array is in point `t`'s block iff each coordinate is in the block's range on its axis. -/
theorem mem_blk (t : Fin cfg2.N) (i : S100000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v41).slice (win2_4.rect t)).set ↔ _
  rw [View.set_slice_whole, Rect.mem_set_unit]
  exact Iff.rfl

/-- Row `p` is in the block of point `p / 5000`, which writes back. -/
theorem cover (i : S100000x64.Idx) : ∃ t : Fin cfg2.N, (cfg2.win 4).flush t = true ∧ i ∈ ((cfg2.win 4).blk t).view.set := by
  have hN : cfg2.N = 20 := N_2
  have hi0 : (i 0).val < 100000 := (i 0).isLt
  have hi1 : (i 1).val < 64 := (i 1).isLt
  refine ⟨⟨(i 0).val / 5000, by omega⟩, flush2_4 _, ?_⟩
  rw [mem_blk]
  obtain ⟨-, -, -, -, -, -, -, -, e0, e1⟩ := grid_index2 ⟨(i 0).val / 5000, by omega⟩
  intro a
  match a with
  | ⟨0, _⟩ =>
    show win2_4.index _ (0 : Fin 2) * 5000 ≤ (i 0).val ∧ (i 0).val < win2_4.index _ (0 : Fin 2) * 5000 + 5000
    rw [e0]
    show (i 0).val / 5000 * 5000 ≤ (i 0).val ∧ (i 0).val < (i 0).val / 5000 * 5000 + 5000
    omega
  | ⟨1, _⟩ =>
    show win2_4.index _ (1 : Fin 2) * 64 ≤ (i 1).val ∧ (i 1).val < win2_4.index _ (1 : Fin 2) * 64 + 64
    rw [e1]
    omega

/-- The output array after the region is `whole` of the arrays the region found. -/
theorem final (c : Dev nD) : (dat2 V c).arrAt 4 cfg2.N = whole (V c main_v39) (V c main_v15) (V c main_arg6) (V c main_v40) :=
  (dat2 V c).arrAt_eq_of_cover 4 _ (fun t _ => written_eq V c t) cover

end Cert.KernelIdeal.RegionValue.R2

namespace Cert.KernelIdeal.RegionValue

open Cert.KernelIdeal Cert.KernelIdeal.Gen Idealize.ShloMosaic Idealize.ShloMosaic.TcCoe Idealize.SL.Sem
open Idealize.ShloMosaic.ValueIdx Cert.DenseLayer Cert.Gcn

/-- `rows` spelt out: the dense layer of the rescaled unit row. -/
theorem R2.rows_eq (a : S100000x128.Idx → EReal) (s : S100000x1.Idx → EReal) (w : S128x64.Idx → EReal) (b : S1x64.Idx → EReal)
    (p : Fin 100000) (q : Fin 64) :
    R2.rows a s w b p q
      = lin (unit (fun k => a (ix2 p k) * s (ix2 p (0 : Fin 1)))) (fun k j => w (ix2 k j)) (fun j => b (ix2 (0 : Fin 1) j)) q := rfl

/-- The third region's output array, for any contents `V` the region finds, at row `p` and feature `q`. -/
theorem region2_apply (V : (c : Dev nD) → (b : Ref sig .tc) → Buf (Elt Ideal) ((c : Thread nD τ).loc b)) (c : Dev nD)
    (p : Fin 100000) (q : Fin 64) :
    (dat2 (F := Ideal) V c).arrAt 4 cfg2.N (ix2 p q)
      = R2.rows (V c main_v39) (V c main_v15) (V c main_arg6) (V c main_v40) p q := by
  rw [R2.final V c]
  rfl

end Cert.KernelIdeal.RegionValue

end
-- ==== Proof.Bridge.lean ====
/-
  The idealized kernel's result is the reference's last stage, layer by layer.

  The kernel's program runs three regions with host operations between them. Writing s for the per-node factor
  (the reciprocal square root of a node's degree where that is positive, zero elsewhere), the chain is:

  * the first region leaves, at node r and feature q, the first dense layer of the node's input row times s r;
  * the host then gathers those rows at the source numbers and adds them up at the destination numbers; that sum at
    node n, times s n, is the reference's first aggregated row at n — the reference scales every edge by the product of
    its two end nodes' factors instead, and the two agree because every edge that lands at n carries the factor s n, and
    a nonnegative factor other than +∞ moves across any finite sum of extended reals;
  * the second region rescales the aggregate by s, brings the row to unit length, keeps the positive part, applies the
    second dense layer and scales by s again: the reference's second dense layer times s r;
  * the same aggregation law once more, and the third region applies the last dense layer without a trailing scale:
    the reference's result.
-/
import proofs.«128727_j64132451664423_2_alg».proof.Proof.Gen.KernelIdeal.Frame
import proofs.«128727_j64132451664423_2_alg».proof.Proof.RefRead
import proofs.«128727_j64132451664423_2_alg».proof.Proof.LibColumnLayout
import proofs.«128727_j64132451664423_2_alg».proof.Proof.LibDenseLayer
import proofs.«128727_j64132451664423_2_alg».proof.Proof.LibEdgeMix
import proofs.«128727_j64132451664423_2_alg».proof.Proof.KernelHost2
import proofs.«128727_j64132451664423_2_alg».proof.Proof.KernelFactor
import proofs.«128727_j64132451664423_2_alg».proof.Proof.Region0
import proofs.«128727_j64132451664423_2_alg».proof.Proof.Region1
import proofs.«128727_j64132451664423_2_alg».proof.Proof.Region2

set_option maxRecDepth 16384

noncomputable section

namespace Cert.Bridge

open Cert.KernelIdeal Cert.KernelIdeal.Gen
open Idealize.ShloMosaic Idealize.ShloMosaic.TcCoe Idealize.SL.Sem Idealize.ShloMosaic.ValueIdx
open Cert.ReferenceIdeal.ReadP Cert.DenseLayer Cert.Gcn

variable (m : (ℓ : Loc nD τ sig) → Buf (Elt Ideal) ℓ) (ρ : Dev nD → PrngReg) (c : Dev nD)

/-! ## The printed dimension numbers are the generic ones -/

theorem scatK_eq : Cert.KernelIdeal.scatter_S100000x128_S1700000x1_S1700000x128_1_0_0_1 = Cert.SegmentDims.rowsDims 100000 128 1700000 Cert.ReferenceIdeal.Gen.scatter_S100000x128_S1700000x1_S1700000x128_1_0_0_1_wf := rfl
theorem scatR_eq : Cert.ReferenceIdeal.scatter_S100000x128_S1700000x1_S1700000x128_1_0_0_1 = Cert.SegmentDims.rowsDims 100000 128 1700000 Cert.ReferenceIdeal.Gen.scatter_S100000x128_S1700000x1_S1700000x128_1_0_0_1_wf := rfl
theorem gathK_eq : Cert.KernelIdeal.gather_S100000x128_S1700000x1_S1700000x128_1_0_n_n_0_1_1128 = Cert.GatherRows.rowDims 100000 128 1700000 Cert.ReferenceIdeal.Gen.gather_S100000x128_S1700000x1_S1700000x128_1_0_n_n_0_1_1128_wf := rfl
theorem gathR_eq : Cert.ReferenceIdeal.gather_S100000x128_S1700000x1_S1700000x128_1_0_n_n_0_1_1128 = Cert.GatherRows.rowDims 100000 128 1700000 Cert.ReferenceIdeal.Gen.gather_S100000x128_S1700000x1_S1700000x128_1_0_n_n_0_1_1128_wf := rfl
theorem gvecR_eq : Cert.ReferenceIdeal.gather_S100000_S1700000x1_S1700000_n_0_n_n_0_1_1 = Cert.GatherRows.vecDims 100000 1700000 Cert.ReferenceIdeal.Gen.gather_S100000_S1700000x1_S1700000_n_0_n_n_0_1_1_wf := rfl

/-- The array of zeros the first aggregation accumulates into. -/
theorem v44_zero (j : S100000x128.Idx) : val_main_v44 (F := Ideal) j = 0 := by
  rw [val_main_v44_apply, val_main_cst_8_apply]
  exact Ideal.ofBits_zero_f32

/-- The array of zeros the second aggregation accumulates into. -/
theorem v90_zero (j : S100000x128.Idx) : val_main_v90 (F := Ideal) j = 0 := by
  rw [val_main_v90_apply, val_main_cst_19_apply]
  exact Ideal.ofBits_zero_f32

/-- Entry `(n, k)` of an array times the entry of a column in row `n`. -/
def scaledAt (a : S100000x128.Idx → EReal) (s : S100000x1.Idx → EReal) (n : Fin 100000) (k : Fin 128) : EReal :=
  a (ix2 n k) * s (ix2 n (0 : Fin 1))

/-! ## The first layer -/

/-- The first region's rows: the reference's first dense layer, each row times its node's factor. -/
theorem layer0 (r : Fin 100000) (q : Fin 128) :
    (W4 m ρ c (Proc.devRef .tc main_v17) : S100000x128.Idx → EReal) (ix2 r q)
      = val_main_v18 (F := Ideal) (m ((c : Thread nD τ).loc main_arg0)) (m ((c : Thread nD τ).loc main_arg2)) (m ((c : Thread nD τ).loc main_arg3)) (ix2 r q) * val_main_v14 (F := Ideal) (m ((c : Thread nD τ).loc main_arg1)) (ix1 r) := by
  have hw : W4 m ρ c (Proc.devRef .tc main_v17) = (dat0 (V3 m ρ) c).arrAt 4 cfg0.N := W4_arr m ρ c 4
  have hb : ∀ j : Fin 128, (V3 m ρ c main_v16 : S1x128.Idx → EReal) (ix2 (0 : Fin 1) j)
      = ((m ((c : Thread nD τ).loc main_arg3)) : S128.Idx → EReal) (ix1 j) := fun j => by
    rw [show V3 m ρ c main_v16 = _ from Cert.KernelIdeal.HostValue.W3_v16 m ρ c]
    exact shapeCast_a_1a_apply _ _ 0 j
  have hs : (V3 m ρ c main_v15 : S100000x1.Idx → EReal) (ix2 r (0 : Fin 1))
      = val_main_v14 (F := Ideal) (m ((c : Thread nD τ).loc main_arg1)) (ix1 r) := by
    rw [show V3 m ρ c main_v15 = _ from Cert.KernelIdeal.HostValue.W3_v15 m ρ c]
    exact Cert.ColumnLayout.shapeCast_a_a1_apply _ _ r 0
  have e0 : V3 m ρ c main_arg0 = (m ((c : Thread nD τ).loc main_arg0)) := Cert.KernelIdeal.HostValue.W3_arg0 m ρ c
  have e2 : V3 m ρ c main_arg2 = (m ((c : Thread nD τ).loc main_arg2)) := Cert.KernelIdeal.HostValue.W3_arg2 m ρ c
  rw [hw, Cert.KernelIdeal.RegionValue.region0_apply (V3 m ρ) c r q, hs, funext hb, e0, e2, Cert.ReferenceIdeal.RefRead.h1_apply]

/-- The first aggregate, rescaled by the node's factor, is the reference's first aggregated row. -/
theorem mix1 (n : Fin 100000) (k : Fin 128) :
    scaledAt (W5 m ρ c (Proc.devRef .tc main_v27)) (W5 m ρ c (Proc.devRef .tc main_v15)) n k
      = val_main_v51 (F := Ideal) (m ((c : Thread nD τ).loc main_arg0)) (m ((c : Thread nD τ).loc main_arg1)) (m ((c : Thread nD τ).loc main_arg2)) (m ((c : Thread nD τ).loc main_arg3)) (ix2 n k) := by
  unfold scaledAt
  rw [Cert.KernelIdeal.HostValue.W5_v27 m ρ c, Cert.KernelIdeal.HostValue.W5_v15 m ρ c, Cert.KernelIdeal.HostValue.W3_v15 m ρ c, Cert.ReferenceIdeal.RefRead.g1_apply]
  unfold val_main_v46 val_main_v43 val_main_v42 val_main_v41 val_main_v34 val_main_v33 val_main_v25 val_main_v32
  rw [scatK_eq, gathK_eq, scatR_eq, gathR_eq, gvecR_eq]
  exact Cert.EdgeMix.mix_law (N := 100000) (C := 128) (E := 1700000) (by decide)
    Cert.ReferenceIdeal.Gen.scatter_S100000x128_S1700000x1_S1700000x128_1_0_0_1_wf Cert.ReferenceIdeal.Gen.gather_S100000x128_S1700000x1_S1700000x128_1_0_n_n_0_1_1128_wf Cert.ReferenceIdeal.Gen.gather_S100000_S1700000x1_S1700000_n_0_n_n_0_1_1_wf
    Cert.ReferenceIdeal.Gen.bcast_S1700000_S1700000x1_0 Cert.ReferenceIdeal.Gen.bcast_S1700000x1_S1700000x128_0_1
    (val_main_v18 (F := Ideal) (m ((c : Thread nD τ).loc main_arg0)) (m ((c : Thread nD τ).loc main_arg2)) (m ((c : Thread nD τ).loc main_arg3))) (W4 m ρ c (Proc.devRef .tc main_v17)) (val_main_v14 (F := Ideal) (m ((c : Thread nD τ).loc main_arg1)))
    (shapeCast S100000x1 (val_main_v14 (F := Ideal) (m ((c : Thread nD τ).loc main_arg1))) shapeCasts_S100000_S100000x1)
    (val_main_v40 (F := Ideal) (m ((c : Thread nD τ).loc main_arg1))) (val_main_v24 (F := Ideal) (m ((c : Thread nD τ).loc main_arg1))) (val_main_v31 (F := Ideal) (m ((c : Thread nD τ).loc main_arg1))) (val_main_v45 (F := Ideal) (m ((c : Thread nD τ).loc main_arg1)))
    (val_main_v44 (F := Ideal)) (val_main_v44 (F := Ideal))
    (fun n => Cert.ReferenceIdeal.RefRead.dinv_good (m ((c : Thread nD τ).loc main_arg1)) (ix1 n))
    (fun n => Cert.ColumnLayout.shapeCast_a_a1_apply _ _ n 0)
    (layer0 m ρ c) v44_zero v44_zero
    (fun i => congrFun (Cert.ReferenceIdeal.RefRead.v24_eq (m ((c : Thread nD τ).loc main_arg1))) _)
    (fun i n h => Cert.ReferenceIdeal.RefRead.landing (m ((c : Thread nD τ).loc main_arg1)) i n h)
    n k

/-! ## The second layer -/

/-- The second region's rows, for typed arrays whose entries are known. -/
theorem rows1_core (a : S100000x128.Idx → EReal) (s : S100000x1.Idx → EReal) (w : S128x128.Idx → EReal) (b : S1x128.Idx → EReal)
    (g : S100000x128.Idx → EReal) (w' : S128x128.Idx → EReal) (b' : S128.Idx → EReal) (d : S100000.Idx → EReal)
    (p : Fin 100000) (q : Fin 128)
    (ha : ∀ k : Fin 128, a (ix2 p k) * s (ix2 p (0 : Fin 1)) = g (ix2 p k)) (hs : s (ix2 p (0 : Fin 1)) = d (ix1 p))
    (hw : w = w') (hb : ∀ j : Fin 128, b (ix2 (0 : Fin 1) j) = b' (ix1 j)) :
    Cert.KernelIdeal.RegionValue.R1.rows a s w b p q
      = lin (unit (fun k => g (ix2 p k))) (fun k j => w' (ix2 k j)) (fun j => b' (ix1 j)) q * d (ix1 p) := by
  rw [Cert.KernelIdeal.RegionValue.R1.rows_eq, funext ha, hs, hw, funext hb]

/-- The second region's rows: the reference's second dense layer, each row times its node's factor. -/
theorem layer1 (r : Fin 100000) (q : Fin 128) :
    (W6 m ρ c (Proc.devRef .tc main_v29) : S100000x128.Idx → EReal) (ix2 r q)
      = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 r q) * val_main_v14 (F := Ideal) (m ((c : Thread nD τ).loc main_arg1)) (ix1 r) := by
  have hw : W6 m ρ c (Proc.devRef .tc main_v29) = (dat1 (V5 m ρ) c).arrAt 4 cfg1.N := W6_arr m ρ c 4
  rw [hw, Cert.KernelIdeal.RegionValue.region1_apply (V5 m ρ) c r q, Cert.ReferenceIdeal.RefRead.h2_apply]
  exact rows1_core _ _ _ _ (val_main_v51 (F := Ideal) (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (val_main_v14 (F := Ideal) (m ((c : Thread nD τ).loc main_arg1))) r q
    (fun k => mix1 m ρ c r k)
    (by rw [show V5 m ρ c main_v15 = _ from (Cert.KernelIdeal.HostValue.W5_v15 m ρ c).trans (Cert.KernelIdeal.HostValue.W3_v15 m ρ c)]
        exact Cert.ColumnLayout.shapeCast_a_a1_apply _ _ r 0)
    (Cert.KernelIdeal.HostValue.W5_arg4 m ρ c)
    (fun j => by rw [show V5 m ρ c main_v28 = _ from Cert.KernelIdeal.HostValue.W5_v28 m ρ c]; exact shapeCast_a_1a_apply _ _ 0 j)

/-- The second aggregate, rescaled by the node's factor, is the reference's second aggregated row. -/
theorem mix2 (n : Fin 100000) (k : Fin 128) :
    scaledAt (W7 m ρ c (Proc.devRef .tc main_v39)) (W7 m ρ c (Proc.devRef .tc main_v15)) n k
      = val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 n k) := by
  unfold scaledAt
  rw [Cert.KernelIdeal.HostValue.W7_v39 m ρ c, Cert.KernelIdeal.HostValue.W7_v15 m ρ c, Cert.KernelIdeal.HostValue.W3_v15 m ρ c, Cert.ReferenceIdeal.RefRead.g2_apply]
  unfold val_main_v92 val_main_v89 val_main_v88 val_main_v87 val_main_v80 val_main_v79 val_main_v71 val_main_v78
  rw [Cert.ReferenceIdeal.RefRead.v86_eq, Cert.ReferenceIdeal.RefRead.v91_eq, scatK_eq, gathK_eq, scatR_eq, gathR_eq, gvecR_eq]
  exact Cert.EdgeMix.mix_law (N := 100000) (C := 128) (E := 1700000) (by decide)
    Cert.ReferenceIdeal.Gen.scatter_S100000x128_S1700000x1_S1700000x128_1_0_0_1_wf Cert.ReferenceIdeal.Gen.gather_S100000x128_S1700000x1_S1700000x128_1_0_n_n_0_1_1128_wf Cert.ReferenceIdeal.Gen.gather_S100000_S1700000x1_S1700000_n_0_n_n_0_1_1_wf
    Cert.ReferenceIdeal.Gen.bcast_S1700000_S1700000x1_0 Cert.ReferenceIdeal.Gen.bcast_S1700000x1_S1700000x128_0_1
    (val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (W6 m ρ c (Proc.devRef .tc main_v29)) (val_main_v14 (F := Ideal) (m ((c : Thread nD τ).loc main_arg1)))
    (shapeCast S100000x1 (val_main_v14 (F := Ideal) (m ((c : Thread nD τ).loc main_arg1))) shapeCasts_S100000_S100000x1)
    (val_main_v40 (F := Ideal) (m ((c : Thread nD τ).loc main_arg1))) (val_main_v70 (F := Ideal) (m ((c : Thread nD τ).loc main_arg1))) (val_main_v77 (F := Ideal) (m ((c : Thread nD τ).loc main_arg1))) (val_main_v45 (F := Ideal) (m ((c : Thread nD τ).loc main_arg1)))
    (val_main_v44 (F := Ideal)) (val_main_v90 (F := Ideal))
    (fun n => Cert.ReferenceIdeal.RefRead.dinv_good (m ((c : Thread nD τ).loc main_arg1)) (ix1 n))
    (fun n => Cert.ColumnLayout.shapeCast_a_a1_apply _ _ n 0)
    (layer1 m ρ c) v44_zero v90_zero
    (fun i => congrFun (Cert.ReferenceIdeal.RefRead.v70_eq (m ((c : Thread nD τ).loc main_arg1))) _)
    (fun i n h => by rw [Cert.ReferenceIdeal.RefRead.v77_eq]; exact Cert.ReferenceIdeal.RefRead.landing (m ((c : Thread nD τ).loc main_arg1)) i n h)
    n k

/-! ## The last layer -/

/-- The third region's rows, for typed arrays whose entries are known. -/
theorem rows2_core (a : S100000x128.Idx → EReal) (s : S100000x1.Idx → EReal) (w : S128x64.Idx → EReal) (b : S1x64.Idx → EReal)
    (g : S100000x128.Idx → EReal) (w' : S128x64.Idx → EReal) (b' : S64.Idx → EReal) (p : Fin 100000) (q : Fin 64)
    (ha : ∀ k : Fin 128, a (ix2 p k) * s (ix2 p (0 : Fin 1)) = g (ix2 p k))
    (hw : w = w') (hb : ∀ j : Fin 64, b (ix2 (0 : Fin 1) j) = b' (ix1 j)) :
    Cert.KernelIdeal.RegionValue.R2.rows a s w b p q = lin (unit (fun k => g (ix2 p k))) (fun k j => w' (ix2 k j)) (fun j => b' (ix1 j)) q := by
  rw [Cert.KernelIdeal.RegionValue.R2.rows_eq, funext ha, hw, funext hb]

/-- The kernel's result array is the reference's last stage of the same eight arguments. -/
theorem final : W8 m ρ c (Proc.devRef .tc main_v41)
      = val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show (W8 m ρ c (Proc.devRef .tc main_v41) : S100000x64.Idx → EReal) = _
  funext i
  obtain ⟨p, q, rfl⟩ : ∃ (p : Fin 100000) (q : Fin 64), i = ix2 p q := ⟨i 0, i 1, eq_ix2 i⟩
  have hw : W8 m ρ c (Proc.devRef .tc main_v41) = (dat2 (V7 m ρ) c).arrAt 4 cfg2.N := W8_arr m ρ c 4
  rw [hw, Cert.KernelIdeal.RegionValue.region2_apply (V7 m ρ) c p q, Cert.ReferenceIdeal.RefRead.out_apply]
  exact rows2_core _ _ _ _ (val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) p q
    (fun k => mix2 m ρ c p k) (Cert.KernelIdeal.HostValue.W7_arg6 m ρ c)
    (fun j => by rw [show V7 m ρ c main_v40 = _ from Cert.KernelIdeal.HostValue.W7_v40 m ρ c]; exact shapeCast_a_1a_apply _ _ 0 j)

end Cert.Bridge

end
-- ==== Proof.Claims.lean ====
/-
  The five claims, from the three runs and the bridge.

  Each of the two kernel programs is a line of host operations around three row-blocked regions; both run to the end
  with their arguments unchanged. The reference is a line of host operations; its run ends with the result at its last
  stage. The idealization rewrote no operation. From memories that agree on the eight arguments the idealized kernel
  ends with its result array at what its last region leaves, the reference with its result at its last stage, and the
  layer-by-layer bridge says the two arrays are one.
-/
import proofs.«128727_j64132451664423_2_alg».proof.Defs
import proofs.«128727_j64132451664423_2_alg».proof.Proof.Gen.Kernel.Frame
import proofs.«128727_j64132451664423_2_alg».proof.Proof.Gen.KernelIdeal.Frame
import proofs.«128727_j64132451664423_2_alg».proof.Proof.Gen.ReferenceIdeal
import proofs.«128727_j64132451664423_2_alg».proof.Proof.Gen.Pre_finite_inputs
import proofs.«128727_j64132451664423_2_alg».proof.Proof.KernelRun
import proofs.«128727_j64132451664423_2_alg».proof.Proof.RefRunP
import proofs.«128727_j64132451664423_2_alg».proof.Proof.RefJoin
import proofs.«128727_j64132451664423_2_alg».proof.Proof.RefReadP
import proofs.«128727_j64132451664423_2_alg».proof.Proof.Bridge

set_option maxRecDepth 16384

noncomputable section

namespace Cert.Proof.Claims

open Idealize.ShloMosaic Idealize.ShloMosaic.TcCoe Idealize.SL.Sem

/-- The printed kernel runs to the end with its arguments unchanged: the frame of its three regions. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a line of host operations: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation: nothing to restate. -/
theorem preserves : Cert.preserves_Kernel_KernelIdeal := trivial

/-- From memories that agree on the eight arguments, the idealized kernel ends with its result array at what its last
    region leaves, the reference with its result at its last stage, and the two are one array: the layers' bridge. -/
theorem algebraic : Cert.algebraic_KernelIdeal_ReferenceIdeal := by
  intro m ρ m' ρ' _ hagree
  refine ⟨fun c => Cert.KernelIdeal.Gen.W8 m ρ c (Proc.devRef .tc Cert.KernelIdeal.main_v41),
    Cert.KernelIdeal.RunValue.run (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefValue.res_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact (Cert.Bridge.final m ρ c).symm

end Cert.Proof.Claims

end
-- ==== Proof.lean ====
/-
  A three-layer graph network on 100000 nodes and 1.6 million edges (plus one self loop per node), as a row-blocked
  kernel program and as a whole-array program: the two give the same result array on the extended reals.

  Each layer is a dense layer of a node's row, Σ_k h_k · w_{k q} + b_q. Between two layers every node's row is replaced
  by an aggregate over the edges that arrive at it, each source row weighted by the product of the two end nodes'
  factors, where a node's factor is the reciprocal square root of its degree (zero for a degree that is not positive);
  the aggregated row is then divided by the larger of its Euclidean length and a small constant, and its positive part
  is kept. The whole-array program weights every edge by the product of the two factors. The kernel program instead
  multiplies every row by its own node's factor inside a region, adds the rows up along the edges on the host, and
  multiplies the sum at a node by that node's factor inside the next region. The two agree because every edge that
  lands at a node carries that node's factor, and a nonnegative extended real other than +∞ moves across any finite sum
  of extended reals, whatever the summands are; so the precondition is not used.

  The modules: the per-node factor and the other host buffers of the kernel program as the whole-array program's own
  stages; each region's output array as one function of the arrays the region finds; the whole-array program read layer
  by layer; the aggregation law; the chain of the three layers; and the five claims.
-/
import proofs.«128727_j64132451664423_2_alg».proof.Defs
import proofs.«128727_j64132451664423_2_alg».proof.Proof.Gen.Kernel
import proofs.«128727_j64132451664423_2_alg».proof.Proof.Gen.KernelIdeal
import proofs.«128727_j64132451664423_2_alg».proof.Proof.Gen.ReferenceIdeal
import proofs.«128727_j64132451664423_2_alg».proof.Proof.Gen.Pre_finite_inputs
import proofs.«128727_j64132451664423_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, Cert.Proof.Claims.preserves, Cert.Proof.Claims.algebraic⟩

end Cert.Proof

end
